-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000 : Shape := ⟨1, ![100000]⟩
abbrev S4x16 : Shape := ⟨2, ![4, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S16x16 .f32) (main_arg14 : FVec F S16 .f32) (main_arg15 : FVec F S16x1 .f32) (main_arg16 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg13
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x1 .f32 := Host.absf main_arg15
  let main_cst_24 : FVec F S_ .f32 := constant S_ .f32 0x7F800000#32
  let main_v65 : FVec F S16x1 .f32 := broadcastInDim S16x1 ![] bcast_S_S16x1 main_cst_24
  let main_v66 : IVec S16x1 1 := cmpf .olt main_v64 main_v65
  let main_c_25 : IVec S_ 1 := constantI S_ 1 1#1
  let main_v67 : IVec S_ 1 := (fun x v => Host.reduce IntOp.andi x v reducesTo_S16x1_S_d0_1 h_S_) main_v66 main_c_25
  fn_part4 (F := F) main_arg16 main_v63 main_v67

def fn_part2 {F : FTy → Type} [FloatOps F] (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x1 .f32) (main_arg16 : FVec F S1 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg11
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_v48 main_v49 main_v50

def fn_part1 {F : FTy → Type} [FloatOps F] (main_arg6 : FVec F S16 .f32) (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x1 .f32) (main_arg16 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x4 .f32) (main_arg1 : IVec S2x3200000 32) (main_arg2 : IVec S100000 32) (main_arg3 : FVec F S4x16 .f32) (main_arg4 : FVec F S16 .f32) (main_arg5 : FVec F S16x16 .f32) (main_arg6 : FVec F S16 .f32) (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x1 .f32) (main_arg16 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x16 .f32 := Host.absf main_arg3
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x4 : Shape := ⟨2, ![100000, 4]⟩
abbrev S2x3200000 : Shape := ⟨2, ![2, 3200000]⟩
abbrev S100000 : Shape := ⟨1, ![100000]⟩
abbrev S4x16 : Shape := ⟨2, ![4, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S4 : Shape := ⟨1, ![4]⟩
abbrev S100000x16 : Shape := ⟨2, ![100000, 16]⟩
abbrev S10000x4 : Shape := ⟨2, ![10000, 4]⟩
abbrev S10000x16 : Shape := ⟨2, ![10000, 16]⟩
abbrev S3300000x16 : Shape := ⟨2, ![3300000, 16]⟩
abbrev S1x16 : Shape := ⟨2, ![1, 16]⟩
abbrev S1000x16 : Shape := ⟨2, ![1000, 16]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 158
  | .vmem => 41
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S4x16, .f32⟩
  | 4 => ⟨S16, .f32⟩
  | 5 => ⟨S16x16, .f32⟩
  | 6 => ⟨S16, .f32⟩
  | 7 => ⟨S16x16, .f32⟩
  | 8 => ⟨S16, .f32⟩
  | 9 => ⟨S16x16, .f32⟩
  | 10 => ⟨S16, .f32⟩
  | 11 => ⟨S16x16, .f32⟩
  | 12 => ⟨S16, .f32⟩
  | 13 => ⟨S16x16, .f32⟩
  | 14 => ⟨S16, .f32⟩
  | 15 => ⟨S16x1, .f32⟩
  | 16 => ⟨S1, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S3300000x1, .f32⟩
  | 58 => ⟨S_, .f32⟩
  | 59 => ⟨S4, .f32⟩
  | 60 => ⟨S100000x16, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x16, .f32⟩
  | 70 => ⟨S3300000x16, .f32⟩
  | 71 => ⟨S3300000x16, .f32⟩
  | 72 => ⟨S_, .f32⟩
  | 73 => ⟨S100000x16, .f32⟩
  | 74 => ⟨S3300000x1, .i32⟩
  | 75 => ⟨S100000x16, .f32⟩
  | 76 => ⟨S100000x16, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x16, .f32⟩
  | 86 => ⟨S3300000x16, .f32⟩
  | 87 => ⟨S3300000x16, .f32⟩
  | 88 => ⟨S_, .f32⟩
  | 89 => ⟨S100000x16, .f32⟩
  | 90 => ⟨S3300000x1, .i32⟩
  | 91 => ⟨S100000x16, .f32⟩
  | 92 => ⟨S100000x16, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x16, .f32⟩
  | 102 => ⟨S3300000x16, .f32⟩
  | 103 => ⟨S3300000x16, .f32⟩
  | 104 => ⟨S_, .f32⟩
  | 105 => ⟨S100000x16, .f32⟩
  | 106 => ⟨S3300000x1, .i32⟩
  | 107 => ⟨S100000x16, .f32⟩
  | 108 => ⟨S100000x16, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x16, .f32⟩
  | 118 => ⟨S3300000x16, .f32⟩
  | 119 => ⟨S3300000x16, .f32⟩
  | 120 => ⟨S_, .f32⟩
  | 121 => ⟨S100000x16, .f32⟩
  | 122 => ⟨S3300000x1, .i32⟩
  | 123 => ⟨S100000x16, .f32⟩
  | 124 => ⟨S100000x16, .f32⟩
  | 125 => ⟨S_, .i32⟩
  | 126 => ⟨S3300000, .i32⟩
  | 127 => ⟨S3300000, .i1⟩
  | _ => ⟨S100000x4, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x16, .f32⟩
  | 6 => ⟨S3300000x16, .f32⟩
  | 7 => ⟨S3300000x16, .f32⟩
  | 8 => ⟨S_, .f32⟩
  | 9 => ⟨S100000x16, .f32⟩
  | 10 => ⟨S3300000x1, .i32⟩
  | 11 => ⟨S100000x16, .f32⟩
  | 12 => ⟨S100000x16, .f32⟩
  | 13 => ⟨S_, .f32⟩
  | 14 => ⟨S1000x16, .f32⟩
  | 15 => ⟨S100000x1, .i32⟩
  | 16 => ⟨S1000x16, .f32⟩
  | 17 => ⟨S_, .f32⟩
  | 18 => ⟨S100000, .f32⟩
  | 19 => ⟨S_, .f32⟩
  | 20 => ⟨S1000, .f32⟩
  | 21 => ⟨S100000x1, .i32⟩
  | 22 => ⟨S1000, .f32⟩
  | 23 => ⟨S_, .f32⟩
  | 24 => ⟨S1000, .f32⟩
  | 25 => ⟨S1000, .f32⟩
  | 26 => ⟨S1000x1, .f32⟩
  | 27 => ⟨S1000x16, .f32⟩
  | 28 => ⟨S1000x16, .f32⟩
  | 29 => ⟨S1000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S4, .f32⟩
  | .local _ .vmem, ⟨3, _⟩ => ⟨S4x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S16, .f32⟩
  | .local _ .vmem, ⟨9, _⟩ => ⟨S16x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S16, .f32⟩
  | .local _ .vmem, ⟨15, _⟩ => ⟨S16x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S16, .f32⟩
  | .local _ .vmem, ⟨21, _⟩ => ⟨S16x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S16, .f32⟩
  | .local _ .vmem, ⟨27, _⟩ => ⟨S16x16, .f32⟩
  | .local _ .vmem, ⟨28, _⟩ => ⟨S10000x16, .f32⟩
  | .local _ .vmem, ⟨29, _⟩ => ⟨S10000x16, .f32⟩
  | .local _ .vmem, ⟨30, _⟩ => ⟨S10000x16, .f32⟩
  | .local _ .vmem, ⟨31, _⟩ => ⟨S10000x16, .f32⟩
  | .local _ .vmem, ⟨32, _⟩ => ⟨S16, .f32⟩
  | .local _ .vmem, ⟨33, _⟩ => ⟨S10000x16, .f32⟩
  | .local _ .vmem, ⟨34, _⟩ => ⟨S10000x16, .f32⟩
  | .local _ .vmem, ⟨35, _⟩ => ⟨S1000x16, .f32⟩
  | .local _ .vmem, ⟨36, _⟩ => ⟨S16x16, .f32⟩
  | .local _ .vmem, ⟨37, _⟩ => ⟨S16, .f32⟩
  | .local _ .vmem, ⟨38, _⟩ => ⟨S16x1, .f32⟩
  | .local _ .vmem, ⟨39, _⟩ => ⟨S1, .f32⟩
  | .local _ .vmem, ⟨40, _⟩ => ⟨S1000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_10 : Ref sig .tc := ⟨.hbm, 77, rfl⟩
abbrev main_v46 : Ref sig .tc := ⟨.hbm, 78, rfl⟩
abbrev main_v47 : Ref sig .tc := ⟨.hbm, 79, rfl⟩
abbrev main_c_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_16 : Ref sig .tc := ⟨.hbm, 109, rfl⟩
abbrev main_v72 : Ref sig .tc := ⟨.hbm, 110, rfl⟩
abbrev main_v73 : Ref sig .tc := ⟨.hbm, 111, rfl⟩
abbrev main_c_17 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_19 : Ref sig .tc := ⟨.hbm, 125, rfl⟩
abbrev main_v85 : Ref sig .tc := ⟨.hbm, 126, rfl⟩
abbrev main_v86 : Ref sig .tc := ⟨.hbm, 127, rfl⟩
abbrev main_c_20 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_21 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_22 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_23 : Ref sig .tc := ⟨.hbm, 145, rfl⟩
abbrev main_v101 : Ref sig .tc := ⟨.hbm, 146, rfl⟩
abbrev main_cst_24 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_25 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg4_0 : Ref sig .tc := ⟨.vmem, 39, rfl⟩
abbrev cc6_stg5_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem1_0 : DmaSem sig := 36
abbrev cc6_sem2_0 : DmaSem sig := 37
abbrev cc6_sem3_0 : DmaSem sig := 38
abbrev cc6_sem4_0 : DmaSem sig := 39
abbrev cc6_sem5_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x16 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S16x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S4 : S_.BroadcastsInDim S4 (![] : Fin 0 → Fin S4.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  bcast_S_S1000x16 : S_.BroadcastsInDim S1000x16 (![] : Fin 0 → Fin S1000x16.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x16_0_1 : S1000x1.BroadcastsInDim S1000x16 (![0, 1] : Fin 2 → Fin S1000x16.rank)
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  broadcasts_S1x16_S1000x16 : S1x16.Broadcasts S1000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x4_S4x16_S10000x16_1_0_0_1_n_n_wf : DotDims.WF S10000x4 S4x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  scatter_S1000x16_S100000x1_S100000x16_1_0_0_1_wf : ScatterDims.WF S1000x16 S100000x1 S100000x16 [1] [0] [0] 1
  scatter_S1000_S100000x1_S100000_n_0_0_1_wf : ScatterDims.WF S1000 S100000x1 S100000 [] [0] [0] 1
  dot_S1000x16_S16x16_S1000x16_1_0_0_1_n_n_wf : DotDims.WF S1000x16 S16x16 S1000x16 [1] [0] [0] [1] [] []
  dot_S1000x16_S16x1_S1000x1_1_0_0_1_n_n_wf : DotDims.WF S1000x16 S16x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4.size a ≤ S4.size a
  hwx0_1 : ∀ i : grid0.Coords, EltTy.bits .f32 = 32 ∨ (Rect.block (s := S4) S4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16.size a ≤ S4x16.size a
  hwx0_2 : ∀ i : grid0.Coords, EltTy.bits .f32 = 32 ∨ (Rect.block (s := S4x16) S4x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16.size a ≤ S16.size a
  hwx2_1 : ∀ i : grid2.Coords, EltTy.bits .f32 = 32 ∨ (Rect.block (s := S16) S16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16.size a ≤ S16.size a
  hwx4_1 : ∀ i : grid4.Coords, EltTy.bits .f32 = 32 ∨ (Rect.block (s := S16) S16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x16.size a ≤ S16x16.size a
  hwx4_2 : ∀ i : grid4.Coords, EltTy.bits .f32 = 32 ∨ (Rect.block (s := S16x16) S16x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16.size a ≤ S16.size a
  hwx5_1 : ∀ i : grid5.Coords, EltTy.bits .f32 = 32 ∨ (Rect.block (s := S16) S16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x16.size a ≤ S1000x16.size a
  hwx6_0 : ∀ i : grid6.Coords, EltTy.bits .f32 = 32 ∨ (Rect.block (s := S1000x16) S1000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x16.size a ≤ S16x16.size a
  hwx6_1 : ∀ i : grid6.Coords, EltTy.bits .f32 = 32 ∨ (Rect.block (s := S16x16) S16x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16.size a ≤ S16.size a
  hwx6_2 : ∀ i : grid6.Coords, EltTy.bits .f32 = 32 ∨ (Rect.block (s := S16) S16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x1.size a ≤ S16x1.size a
  hwx6_3 : ∀ i : grid6.Coords, EltTy.bits .f32 = 32 ∨ (Rect.block (s := S16x1) S16x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1000x1.size a ≤ S1000x1.size a
  hwx6_5 : ∀ i : grid6.Coords, EltTy.bits .f32 = 32 ∨ (Rect.block (s := S1000x1) S1000x1.size (cc6_transform_5 i) (hinb6_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x16_S16x16_S1000x16_1_0_0_1_n_n : DotDims S1000x16 S16x16 S1000x16 where
  lhsContracting := [1]
  rhsContracting := [0]
  lhsNonContracting := [0]
  rhsNonContracting := [1]
  lhsBatch := []
  rhsBatch := []
  wf := dot_S1000x16_S16x16_S1000x16_1_0_0_1_n_n_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S16x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S10000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v96) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v109) S1000x16.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S16x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S16x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg16) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v110) S1000x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S100000 : Shape := ⟨1, ![100000]⟩
abbrev S4x16 : Shape := ⟨2, ![4, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S1000x16 : Shape := ⟨2, ![1000, 16]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 210
  | .vmem => 0
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S4x16, .f32⟩
  | 4 => ⟨S16, .f32⟩
  | 5 => ⟨S16x16, .f32⟩
  | 6 => ⟨S16, .f32⟩
  | 7 => ⟨S16x16, .f32⟩
  | 8 => ⟨S16, .f32⟩
  | 9 => ⟨S16x16, .f32⟩
  | 10 => ⟨S16, .f32⟩
  | 11 => ⟨S16x16, .f32⟩
  | 12 => ⟨S16, .f32⟩
  | 13 => ⟨S16x16, .f32⟩
  | 14 => ⟨S16, .f32⟩
  | 15 => ⟨S16x1, .f32⟩
  | 16 => ⟨S1, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x16, .f32⟩
  | 58 => ⟨S3300000x1, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x16, .f32⟩
  | 68 => ⟨S3300000x16, .f32⟩
  | 69 => ⟨S3300000x16, .f32⟩
  | 70 => ⟨S_, .f32⟩
  | 71 => ⟨S100000x16, .f32⟩
  | 72 => ⟨S3300000x1, .i32⟩
  | 73 => ⟨S100000x16, .f32⟩
  | 74 => ⟨S1x16, .f32⟩
  | 75 => ⟨S100000x16, .f32⟩
  | 76 => ⟨S100000x16, .f32⟩
  | 77 => ⟨S_, .f32⟩
  | 78 => ⟨S100000x16, .f32⟩
  | 79 => ⟨S100000x16, .f32⟩
  | 80 => ⟨S100000x16, .f32⟩
  | 81 => ⟨S3300000x1, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x16, .f32⟩
  | 91 => ⟨S3300000x16, .f32⟩
  | 92 => ⟨S3300000x16, .f32⟩
  | 93 => ⟨S_, .f32⟩
  | 94 => ⟨S100000x16, .f32⟩
  | 95 => ⟨S3300000x1, .i32⟩
  | 96 => ⟨S100000x16, .f32⟩
  | 97 => ⟨S1x16, .f32⟩
  | 98 => ⟨S100000x16, .f32⟩
  | 99 => ⟨S100000x16, .f32⟩
  | 100 => ⟨S_, .f32⟩
  | 101 => ⟨S100000x16, .f32⟩
  | 102 => ⟨S100000x16, .f32⟩
  | 103 => ⟨S100000x16, .f32⟩
  | 104 => ⟨S3300000x1, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x16, .f32⟩
  | 115 => ⟨S3300000x16, .f32⟩
  | 116 => ⟨S_, .f32⟩
  | 117 => ⟨S100000x16, .f32⟩
  | 118 => ⟨S3300000x1, .i32⟩
  | 119 => ⟨S100000x16, .f32⟩
  | 120 => ⟨S1x16, .f32⟩
  | 121 => ⟨S100000x16, .f32⟩
  | 122 => ⟨S100000x16, .f32⟩
  | 123 => ⟨S_, .f32⟩
  | 124 => ⟨S100000x16, .f32⟩
  | 125 => ⟨S100000x16, .f32⟩
  | 126 => ⟨S100000x16, .f32⟩
  | 127 => ⟨S3300000x1, .f32⟩
  | _ => ⟨S100000x4, .f32⟩

abbrev hbmTy0_1 (i : Nat) : BufTy := match i % 128 with
  | 0 => ⟨S_, .i32⟩
  | 1 => ⟨S3300000, .i32⟩
  | 2 => ⟨S3300000, .i1⟩
  | 3 => ⟨S_, .i32⟩
  | 4 => ⟨S3300000, .i32⟩
  | 5 => ⟨S3300000, .i32⟩
  | 6 => ⟨S3300000, .i32⟩
  | 7 => ⟨S3300000x1, .i32⟩
  | 8 => ⟨S3300000x16, .f32⟩
  | 9 => ⟨S3300000x16, .f32⟩
  | 10 => ⟨S3300000x16, .f32⟩
  | 11 => ⟨S_, .f32⟩
  | 12 => ⟨S100000x16, .f32⟩
  | 13 => ⟨S3300000x1, .i32⟩
  | 14 => ⟨S100000x16, .f32⟩
  | 15 => ⟨S1x16, .f32⟩
  | 16 => ⟨S100000x16, .f32⟩
  | 17 => ⟨S100000x16, .f32⟩
  | 18 => ⟨S_, .f32⟩
  | 19 => ⟨S100000x16, .f32⟩
  | 20 => ⟨S100000x16, .f32⟩
  | 21 => ⟨S100000x16, .f32⟩
  | 22 => ⟨S3300000x1, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000x16, .f32⟩
  | 32 => ⟨S3300000x16, .f32⟩
  | 33 => ⟨S3300000x16, .f32⟩
  | 34 => ⟨S_, .f32⟩
  | 35 => ⟨S100000x16, .f32⟩
  | 36 => ⟨S3300000x1, .i32⟩
  | 37 => ⟨S100000x16, .f32⟩
  | 38 => ⟨S1x16, .f32⟩
  | 39 => ⟨S100000x16, .f32⟩
  | 40 => ⟨S100000x16, .f32⟩
  | 41 => ⟨S_, .f32⟩
  | 42 => ⟨S100000x16, .f32⟩
  | 43 => ⟨S100000x16, .f32⟩
  | 44 => ⟨S_, .f32⟩
  | 45 => ⟨S1000x16, .f32⟩
  | 46 => ⟨S100000x1, .i32⟩
  | 47 => ⟨S1000x16, .f32⟩
  | 48 => ⟨S_, .f32⟩
  | 49 => ⟨S100000, .f32⟩
  | 50 => ⟨S_, .f32⟩
  | 51 => ⟨S1000, .f32⟩
  | 52 => ⟨S100000x1, .i32⟩
  | 53 => ⟨S1000, .f32⟩
  | 54 => ⟨S_, .f32⟩
  | 55 => ⟨S1000, .f32⟩
  | 56 => ⟨S1000, .f32⟩
  | 57 => ⟨S1000x1, .f32⟩
  | 58 => ⟨S1000x16, .f32⟩
  | 59 => ⟨S1000x16, .f32⟩
  | 60 => ⟨S1000x16, .f32⟩
  | 61 => ⟨S1x16, .f32⟩
  | 62 => ⟨S1000x16, .f32⟩
  | 63 => ⟨S1000x16, .f32⟩
  | 64 => ⟨S_, .f32⟩
  | 65 => ⟨S1000x16, .f32⟩
  | 66 => ⟨S1000x16, .i1⟩
  | 67 => ⟨S_, .f32⟩
  | 68 => ⟨S1000x16, .f32⟩
  | 69 => ⟨S1000x16, .f32⟩
  | 70 => ⟨S1000x16, .f32⟩
  | 71 => ⟨S1000x1, .f32⟩
  | 72 => ⟨S1x1, .f32⟩
  | 73 => ⟨S1000x1, .f32⟩
  | 74 => ⟨S1000x1, .f32⟩
  | 75 => ⟨S_, .f32⟩
  | 76 => ⟨S1000x1, .f32⟩
  | 77 => ⟨S1000x1, .i1⟩
  | 78 => ⟨S_, .f32⟩
  | 79 => ⟨S1000x1, .f32⟩
  | 80 => ⟨S1000x1, .f32⟩
  | 81 => ⟨S1000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_9 : Ref sig .tc := ⟨.hbm, 82, rfl⟩
abbrev main_v50 : Ref sig .tc := ⟨.hbm, 83, rfl⟩
abbrev main_v51 : Ref sig .tc := ⟨.hbm, 84, rfl⟩
abbrev main_c_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call2_cst : Ref sig .tc := ⟨.hbm, 100, rfl⟩
abbrev main_call2_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_12 : Ref sig .tc := ⟨.hbm, 105, rfl⟩
abbrev main_v68 : Ref sig .tc := ⟨.hbm, 106, rfl⟩
abbrev main_v69 : Ref sig .tc := ⟨.hbm, 107, rfl⟩
abbrev main_c_13 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call3_cst : Ref sig .tc := ⟨.hbm, 123, rfl⟩
abbrev main_call3_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_15 : Ref sig .tc := ⟨.hbm, 128, rfl⟩
abbrev main_v86 : Ref sig .tc := ⟨.hbm, 129, rfl⟩
abbrev main_v87 : Ref sig .tc := ⟨.hbm, 130, rfl⟩
abbrev main_c_16 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call4_cst : Ref sig .tc := ⟨.hbm, 146, rfl⟩
abbrev main_call4_v0 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_18 : Ref sig .tc := ⟨.hbm, 151, rfl⟩
abbrev main_v104 : Ref sig .tc := ⟨.hbm, 152, rfl⟩
abbrev main_v105 : Ref sig .tc := ⟨.hbm, 153, rfl⟩
abbrev main_c_19 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_20 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call5_cst : Ref sig .tc := ⟨.hbm, 169, rfl⟩
abbrev main_call5_v0 : Ref sig .tc := ⟨.hbm, 170, rfl⟩
abbrev main_v119 : Ref sig .tc := ⟨.hbm, 171, rfl⟩
abbrev main_cst_21 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_22 : Ref sig .tc := ⟨.hbm, 176, rfl⟩
abbrev main_v123 : Ref sig .tc := ⟨.hbm, 177, rfl⟩
abbrev main_cst_23 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_24 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_25 : Ref sig .tc := ⟨.hbm, 192, rfl⟩
abbrev main_v136 : Ref sig .tc := ⟨.hbm, 193, rfl⟩
abbrev main_v137 : Ref sig .tc := ⟨.hbm, 194, rfl⟩
abbrev main_cst_26 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_27 : Ref sig .tc := ⟨.hbm, 203, rfl⟩
abbrev main_v145 : Ref sig .tc := ⟨.hbm, 204, rfl⟩
abbrev main_v146 : Ref sig .tc := ⟨.hbm, 205, rfl⟩
abbrev main_cst_28 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1000x16 : S_.BroadcastsInDim S1000x16 (![] : Fin 0 → Fin S1000x16.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x16_0_1 : S1000x1.BroadcastsInDim S1000x16 (![0, 1] : Fin 2 → Fin S1000x16.rank)
  bcast_S1x16_S1000x16_0_1 : S1x16.BroadcastsInDim S1000x16 (![0, 1] : Fin 2 → Fin S1000x16.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  bcast_S_S1000x1 : S_.BroadcastsInDim S1000x1 (![] : Fin 0 → Fin S1000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x16_S100000x16_1_0_0_1_n_n_wf : DotDims.WF S100000x4 S4x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S1000x16_S100000x1_S100000x16_1_0_0_1_wf : ScatterDims.WF S1000x16 S100000x1 S100000x16 [1] [0] [0] 1
  scatter_S1000_S100000x1_S100000_n_0_0_1_wf : ScatterDims.WF S1000 S100000x1 S100000 [] [0] [0] 1
  dot_S1000x16_S16x16_S1000x16_1_0_0_1_n_n_wf : DotDims.WF S1000x16 S16x16 S1000x16 [1] [0] [0] [1] [] []
  dot_S1000x16_S16x1_S1000x1_1_0_0_1_n_n_wf : DotDims.WF S1000x16 S16x1 S1000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x16_S16x16_S1000x16_1_0_0_1_n_n : DotDims S1000x16 S16x16 S1000x16 where
  lhsContracting := [1]
  rhsContracting := [0]
  lhsNonContracting := [0]
  rhsNonContracting := [1]
  lhsBatch := []
  rhsBatch := []
  wf := dot_S1000x16_S16x16_S1000x16_1_0_0_1_n_n_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf

class Facts : Prop extends Facts₀ where

variable [Facts]
-- ==== Proof.RunNamed.lean ====
/-
  The idealized kernel's whole run with its RESULT ARRAY NAMED.

  The program is seven kernel launches among stretches of host operations. Its run ends with every buffer of a core at
  the contents the last boundary names: the fold, from the launch memory, of each host stretch's operations and of each
  launch's write-backs. The frame claim keeps of that only the argument arrays; a value claim also needs the result
  array, which ends at the last boundary's contents at its reference. This module states the same run — the same
  segments, the same thread states, the same reading of the final state — with that one more equation kept.
-/
import proofs.«123457_j55611236548999_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and every argument array as launched. -/
theorem run : θ_run defs (onTc (τ := τ) (main (F := F))) ⟨m, fun _ => 0, ρ⟩ (fun r => ∀ c : Dev nD,
      r.2.mem ((c.tc : Thread nD τ).loc main_v110) = W16 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v110 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c)⟩)

end Cert.KernelIdeal.Named

end
-- ==== Proof.Carry.lean ====
/-
  What each launch and each stretch of host operations FINDS in the buffers it reads.

  The program's run is a fold over sixteen boundaries: a stretch of host operations changes only the buffers its
  operations write, and a launch changes only its own arrays. An argument array is written by nothing, so at the
  boundary where a launch or a stretch reads it, it still holds what the memory was launched with; the edge list's two
  index vectors (sources and targets with the self loops appended) and the column of edge weights are computed once by
  the first stretches and read again by the aggregation of every layer, unchanged in between. One walk per buffer, from
  the boundary where it is read back to where it was written.
-/
import proofs.«123457_j55611236548999_1_alg».proof.Proof.Gen.KernelIdeal.Frame
import Idealize.ShloMosaic.Lib.StableHlo.Run
import Idealize.ShloMosaic.PureOps.Ideal

set_option maxRecDepth 16384
set_option maxHeartbeats 1600000

noncomputable section

namespace Cert.KernelIdeal.Carry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays, each at the boundary where it is read -/

/-- Argument 0 at boundary 3: as launched. -/
theorem arg0_at3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
  try rfl

/-- Argument 1 at boundary 3: as launched. -/
theorem arg1_at3 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp
  try rfl

/-- Argument 2 at boundary 14 (the pooling stretch is entered from there): as launched. -/
theorem arg2_at14 (c : Dev nD) : W14 m ρ c (Proc.devRef .tc main_arg2) = m ((c : Thread nD τ).loc main_arg2) := by
  rw [W14_of_ne m ρ c main_arg2 (by decide)]
  show StableHlo.after hostOps5 (W12 m ρ c) (Proc.devRef .tc main_arg2) = _
  after_results_simp
  rw [W12_of_ne m ρ c main_arg2 (by decide)]
  show StableHlo.after hostOps4 (W10 m ρ c) (Proc.devRef .tc main_arg2) = _
  after_results_simp
  rw [W10_of_ne m ρ c main_arg2 (by decide)]
  show StableHlo.after hostOps3 (W8 m ρ c) (Proc.devRef .tc main_arg2) = _
  after_results_simp
  rw [W8_of_ne m ρ c main_arg2 (by decide)]
  show StableHlo.after hostOps2 (W6 m ρ c) (Proc.devRef .tc main_arg2) = _
  after_results_simp
  rw [W6_of_ne m ρ c main_arg2 (by decide)]
  show StableHlo.after hostOps1 (W4 m ρ c) (Proc.devRef .tc main_arg2) = _
  after_results_simp
  rw [W4_of_ne m ρ c main_arg2 (by decide)]
  show StableHlo.after hostOps0_2 (StableHlo.after hostOps0_1 (StableHlo.after hostOps0 (W0 m ρ c))) (Proc.devRef .tc main_arg2) = _
  after_results_simp
  try rfl

/-- Argument 3 at boundary 3: as launched. -/
theorem arg3_at3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
  try rfl

/-- Argument 4 at boundary 5: as launched. -/
theorem arg4_at5 (c : Dev nD) : W5 m ρ c (Proc.devRef .tc main_arg4) = m ((c : Thread nD τ).loc main_arg4) := by
  show StableHlo.after hostOps1 (W4 m ρ c) (Proc.devRef .tc main_arg4) = _
  after_results_simp
  rw [W4_of_ne m ρ c main_arg4 (by decide)]
  show StableHlo.after hostOps0_2 (StableHlo.after hostOps0_1 (StableHlo.after hostOps0 (W0 m ρ c))) (Proc.devRef .tc main_arg4) = _
  after_results_simp
  try rfl

/-- Argument 5 at boundary 5: as launched. -/
theorem arg5_at5 (c : Dev nD) : W5 m ρ c (Proc.devRef .tc main_arg5) = m ((c : Thread nD τ).loc main_arg5) := by
  show StableHlo.after hostOps1 (W4 m ρ c) (Proc.devRef .tc main_arg5) = _
  after_results_simp
  rw [W4_of_ne m ρ c main_arg5 (by decide)]
  show StableHlo.after hostOps0_2 (StableHlo.after hostOps0_1 (StableHlo.after hostOps0 (W0 m ρ c))) (Proc.devRef .tc main_arg5) = _
  after_results_simp
  try rfl

/-- Argument 6 at boundary 7: as launched. -/
theorem arg6_at7 (c : Dev nD) : W7 m ρ c (Proc.devRef .tc main_arg6) = m ((c : Thread nD τ).loc main_arg6) := by
  show StableHlo.after hostOps2 (W6 m ρ c) (Proc.devRef .tc main_arg6) = _
  after_results_simp
  rw [W6_of_ne m ρ c main_arg6 (by decide)]
  show StableHlo.after hostOps1 (W4 m ρ c) (Proc.devRef .tc main_arg6) = _
  after_results_simp
  rw [W4_of_ne m ρ c main_arg6 (by decide)]
  show StableHlo.after hostOps0_2 (StableHlo.after hostOps0_1 (StableHlo.after hostOps0 (W0 m ρ c))) (Proc.devRef .tc main_arg6) = _
  after_results_simp
  try rfl

/-- Argument 7 at boundary 7: as launched. -/
theorem arg7_at7 (c : Dev nD) : W7 m ρ c (Proc.devRef .tc main_arg7) = m ((c : Thread nD τ).loc main_arg7) := by
  show StableHlo.after hostOps2 (W6 m ρ c) (Proc.devRef .tc main_arg7) = _
  after_results_simp
  rw [W6_of_ne m ρ c main_arg7 (by decide)]
  show StableHlo.after hostOps1 (W4 m ρ c) (Proc.devRef .tc main_arg7) = _
  after_results_simp
  rw [W4_of_ne m ρ c main_arg7 (by decide)]
  show StableHlo.after hostOps0_2 (StableHlo.after hostOps0_1 (StableHlo.after hostOps0 (W0 m ρ c))) (Proc.devRef .tc main_arg7) = _
  after_results_simp
  try rfl

/-- Argument 8 at boundary 9: as launched. -/
theorem arg8_at9 (c : Dev nD) : W9 m ρ c (Proc.devRef .tc main_arg8) = m ((c : Thread nD τ).loc main_arg8) := by
  show StableHlo.after hostOps3 (W8 m ρ c) (Proc.devRef .tc main_arg8) = _
  after_results_simp
  rw [W8_of_ne m ρ c main_arg8 (by decide)]
  show StableHlo.after hostOps2 (W6 m ρ c) (Proc.devRef .tc main_arg8) = _
  after_results_simp
  rw [W6_of_ne m ρ c main_arg8 (by decide)]
  show StableHlo.after hostOps1 (W4 m ρ c) (Proc.devRef .tc main_arg8) = _
  after_results_simp
  rw [W4_of_ne m ρ c main_arg8 (by decide)]
  show StableHlo.after hostOps0_2 (StableHlo.after hostOps0_1 (StableHlo.after hostOps0 (W0 m ρ c))) (Proc.devRef .tc main_arg8) = _
  after_results_simp
  try rfl

/-- Argument 9 at boundary 9: as launched. -/
theorem arg9_at9 (c : Dev nD) : W9 m ρ c (Proc.devRef .tc main_arg9) = m ((c : Thread nD τ).loc main_arg9) := by
  show StableHlo.after hostOps3 (W8 m ρ c) (Proc.devRef .tc main_arg9) = _
  after_results_simp
  rw [W8_of_ne m ρ c main_arg9 (by decide)]
  show StableHlo.after hostOps2 (W6 m ρ c) (Proc.devRef .tc main_arg9) = _
  after_results_simp
  rw [W6_of_ne m ρ c main_arg9 (by decide)]
  show StableHlo.after hostOps1 (W4 m ρ c) (Proc.devRef .tc main_arg9) = _
  after_results_simp
  rw [W4_of_ne m ρ c main_arg9 (by decide)]
  show StableHlo.after hostOps0_2 (StableHlo.after hostOps0_1 (StableHlo.after hostOps0 (W0 m ρ c))) (Proc.devRef .tc main_arg9) = _
  after_results_simp
  try rfl

/-- Argument 10 at boundary 11: as launched. -/
theorem arg10_at11 (c : Dev nD) : W11 m ρ c (Proc.devRef .tc main_arg10) = m ((c : Thread nD τ).loc main_arg10) := by
  show StableHlo.after hostOps4 (W10 m ρ c) (Proc.devRef .tc main_arg10) = _
  after_results_simp
  rw [W10_of_ne m ρ c main_arg10 (by decide)]
  show StableHlo.after hostOps3 (W8 m ρ c) (Proc.devRef .tc main_arg10) = _
  after_results_simp
  rw [W8_of_ne m ρ c main_arg10 (by decide)]
  show StableHlo.after hostOps2 (W6 m ρ c) (Proc.devRef .tc main_arg10) = _
  after_results_simp
  rw [W6_of_ne m ρ c main_arg10 (by decide)]
  show StableHlo.after hostOps1 (W4 m ρ c) (Proc.devRef .tc main_arg10) = _
  after_results_simp
  rw [W4_of_ne m ρ c main_arg10 (by decide)]
  show StableHlo.after hostOps0_2 (StableHlo.after hostOps0_1 (StableHlo.after hostOps0 (W0 m ρ c))) (Proc.devRef .tc main_arg10) = _
  after_results_simp
  try rfl

/-- Argument 11 at boundary 11: as launched. -/
theorem arg11_at11 (c : Dev nD) : W11 m ρ c (Proc.devRef .tc main_arg11) = m ((c : Thread nD τ).loc main_arg11) := by
  show StableHlo.after hostOps4 (W10 m ρ c) (Proc.devRef .tc main_arg11) = _
  after_results_simp
  rw [W10_of_ne m ρ c main_arg11 (by decide)]
  show StableHlo.after hostOps3 (W8 m ρ c) (Proc.devRef .tc main_arg11) = _
  after_results_simp
  rw [W8_of_ne m ρ c main_arg11 (by decide)]
  show StableHlo.after hostOps2 (W6 m ρ c) (Proc.devRef .tc main_arg11) = _
  after_results_simp
  rw [W6_of_ne m ρ c main_arg11 (by decide)]
  show StableHlo.after hostOps1 (W4 m ρ c) (Proc.devRef .tc main_arg11) = _
  after_results_simp
  rw [W4_of_ne m ρ c main_arg11 (by decide)]
  show StableHlo.after hostOps0_2 (StableHlo.after hostOps0_1 (StableHlo.after hostOps0 (W0 m ρ c))) (Proc.devRef .tc main_arg11) = _
  after_results_simp
  try rfl

/-- Argument 12 at boundary 13: as launched. -/
theorem arg12_at13 (c : Dev nD) : W13 m ρ c (Proc.devRef .tc main_arg12) = m ((c : Thread nD τ).loc main_arg12) := by
  show StableHlo.after hostOps5 (W12 m ρ c) (Proc.devRef .tc main_arg12) = _
  after_results_simp
  rw [W12_of_ne m ρ c main_arg12 (by decide)]
  show StableHlo.after hostOps4 (W10 m ρ c) (Proc.devRef .tc main_arg12) = _
  after_results_simp
  rw [W10_of_ne m ρ c main_arg12 (by decide)]
  show StableHlo.after hostOps3 (W8 m ρ c) (Proc.devRef .tc main_arg12) = _
  after_results_simp
  rw [W8_of_ne m ρ c main_arg12 (by decide)]
  show StableHlo.after hostOps2 (W6 m ρ c) (Proc.devRef .tc main_arg12) = _
  after_results_simp
  rw [W6_of_ne m ρ c main_arg12 (by decide)]
  show StableHlo.after hostOps1 (W4 m ρ c) (Proc.devRef .tc main_arg12) = _
  after_results_simp
  rw [W4_of_ne m ρ c main_arg12 (by decide)]
  show StableHlo.after hostOps0_2 (StableHlo.after hostOps0_1 (StableHlo.after hostOps0 (W0 m ρ c))) (Proc.devRef .tc main_arg12) = _
  after_results_simp
  try rfl

/-- Argument 13 at boundary 15: as launched. -/
theorem arg13_at15 (c : Dev nD) : W15 m ρ c (Proc.devRef .tc main_arg13) = m ((c : Thread nD τ).loc main_arg13) := by
  show StableHlo.after hostOps6 (W14 m ρ c) (Proc.devRef .tc main_arg13) = _
  after_results_simp
  rw [W14_of_ne m ρ c main_arg13 (by decide)]
  show StableHlo.after hostOps5 (W12 m ρ c) (Proc.devRef .tc main_arg13) = _
  after_results_simp
  rw [W12_of_ne m ρ c main_arg13 (by decide)]
  show StableHlo.after hostOps4 (W10 m ρ c) (Proc.devRef .tc main_arg13) = _
  after_results_simp
  rw [W10_of_ne m ρ c main_arg13 (by decide)]
  show StableHlo.after hostOps3 (W8 m ρ c) (Proc.devRef .tc main_arg13) = _
  after_results_simp
  rw [W8_of_ne m ρ c main_arg13 (by decide)]
  show StableHlo.after hostOps2 (W6 m ρ c) (Proc.devRef .tc main_arg13) = _
  after_results_simp
  rw [W6_of_ne m ρ c main_arg13 (by decide)]
  show StableHlo.after hostOps1 (W4 m ρ c) (Proc.devRef .tc main_arg13) = _
  after_results_simp
  rw [W4_of_ne m ρ c main_arg13 (by decide)]
  show StableHlo.after hostOps0_2 (StableHlo.after hostOps0_1 (StableHlo.after hostOps0 (W0 m ρ c))) (Proc.devRef .tc main_arg13) = _
  after_results_simp
  try rfl

/-- Argument 14 at boundary 15: as launched. -/
theorem arg14_at15 (c : Dev nD) : W15 m ρ c (Proc.devRef .tc main_arg14) = m ((c : Thread nD τ).loc main_arg14) := by
  show StableHlo.after hostOps6 (W14 m ρ c) (Proc.devRef .tc main_arg14) = _
  after_results_simp
  rw [W14_of_ne m ρ c main_arg14 (by decide)]
  show StableHlo.after hostOps5 (W12 m ρ c) (Proc.devRef .tc main_arg14) = _
  after_results_simp
  rw [W12_of_ne m ρ c main_arg14 (by decide)]
  show StableHlo.after hostOps4 (W10 m ρ c) (Proc.devRef .tc main_arg14) = _
  after_results_simp
  rw [W10_of_ne m ρ c main_arg14 (by decide)]
  show StableHlo.after hostOps3 (W8 m ρ c) (Proc.devRef .tc main_arg14) = _
  after_results_simp
  rw [W8_of_ne m ρ c main_arg14 (by decide)]
  show StableHlo.after hostOps2 (W6 m ρ c) (Proc.devRef .tc main_arg14) = _
  after_results_simp
  rw [W6_of_ne m ρ c main_arg14 (by decide)]
  show StableHlo.after hostOps1 (W4 m ρ c) (Proc.devRef .tc main_arg14) = _
  after_results_simp
  rw [W4_of_ne m ρ c main_arg14 (by decide)]
  show StableHlo.after hostOps0_2 (StableHlo.after hostOps0_1 (StableHlo.after hostOps0 (W0 m ρ c))) (Proc.devRef .tc main_arg14) = _
  after_results_simp
  try rfl

/-- Argument 15 at boundary 15: as launched. -/
theorem arg15_at15 (c : Dev nD) : W15 m ρ c (Proc.devRef .tc main_arg15) = m ((c : Thread nD τ).loc main_arg15) := by
  show StableHlo.after hostOps6 (W14 m ρ c) (Proc.devRef .tc main_arg15) = _
  after_results_simp
  rw [W14_of_ne m ρ c main_arg15 (by decide)]
  show StableHlo.after hostOps5 (W12 m ρ c) (Proc.devRef .tc main_arg15) = _
  after_results_simp
  rw [W12_of_ne m ρ c main_arg15 (by decide)]
  show StableHlo.after hostOps4 (W10 m ρ c) (Proc.devRef .tc main_arg15) = _
  after_results_simp
  rw [W10_of_ne m ρ c main_arg15 (by decide)]
  show StableHlo.after hostOps3 (W8 m ρ c) (Proc.devRef .tc main_arg15) = _
  after_results_simp
  rw [W8_of_ne m ρ c main_arg15 (by decide)]
  show StableHlo.after hostOps2 (W6 m ρ c) (Proc.devRef .tc main_arg15) = _
  after_results_simp
  rw [W6_of_ne m ρ c main_arg15 (by decide)]
  show StableHlo.after hostOps1 (W4 m ρ c) (Proc.devRef .tc main_arg15) = _
  after_results_simp
  rw [W4_of_ne m ρ c main_arg15 (by decide)]
  show StableHlo.after hostOps0_2 (StableHlo.after hostOps0_1 (StableHlo.after hostOps0 (W0 m ρ c))) (Proc.devRef .tc main_arg15) = _
  after_results_simp
  try rfl

/-- Argument 16 at boundary 15: as launched. -/
theorem arg16_at15 (c : Dev nD) : W15 m ρ c (Proc.devRef .tc main_arg16) = m ((c : Thread nD τ).loc main_arg16) := by
  show StableHlo.after hostOps6 (W14 m ρ c) (Proc.devRef .tc main_arg16) = _
  after_results_simp
  rw [W14_of_ne m ρ c main_arg16 (by decide)]
  show StableHlo.after hostOps5 (W12 m ρ c) (Proc.devRef .tc main_arg16) = _
  after_results_simp
  rw [W12_of_ne m ρ c main_arg16 (by decide)]
  show StableHlo.after hostOps4 (W10 m ρ c) (Proc.devRef .tc main_arg16) = _
  after_results_simp
  rw [W10_of_ne m ρ c main_arg16 (by decide)]
  show StableHlo.after hostOps3 (W8 m ρ c) (Proc.devRef .tc main_arg16) = _
  after_results_simp
  rw [W8_of_ne m ρ c main_arg16 (by decide)]
  show StableHlo.after hostOps2 (W6 m ρ c) (Proc.devRef .tc main_arg16) = _
  after_results_simp
  rw [W6_of_ne m ρ c main_arg16 (by decide)]
  show StableHlo.after hostOps1 (W4 m ρ c) (Proc.devRef .tc main_arg16) = _
  after_results_simp
  rw [W4_of_ne m ρ c main_arg16 (by decide)]
  show StableHlo.after hostOps0_2 (StableHlo.after hostOps0_1 (StableHlo.after hostOps0 (W0 m ρ c))) (Proc.devRef .tc main_arg16) = _
  after_results_simp
  try rfl

/-! ## The index vectors and the edge-weight column, at the boundary each layer's aggregation is entered from

One step at a time: a launch leaves them alone (they are none of its arrays), and so does the stretch after it (none of
its operations writes them). -/

/-- `main_v3` across launch 0. -/
theorem v3_at4 (c : Dev nD) : W4 m ρ c (Proc.devRef .tc main_v3) = W3 m ρ c (Proc.devRef .tc main_v3) :=
  W4_of_ne m ρ c main_v3 (by decide)

/-- `main_v3` across the stretch after launch 0. -/
theorem v3_h5 (c : Dev nD) : W5 m ρ c (Proc.devRef .tc main_v3) = W4 m ρ c (Proc.devRef .tc main_v3) := by
  show StableHlo.after hostOps1 (W4 m ρ c) (Proc.devRef .tc main_v3) = W4 m ρ c (Proc.devRef .tc main_v3)
  after_results_simp

/-- `main_v3` at boundary 6: what the first stretches left at boundary 3. -/
theorem v3_at6 (c : Dev nD) : W6 m ρ c (Proc.devRef .tc main_v3) = W3 m ρ c (Proc.devRef .tc main_v3) :=
  (W6_of_ne m ρ c main_v3 (by decide)).trans ((v3_h5 m ρ c).trans (v3_at4 m ρ c))

/-- `main_v3` across the stretch after launch 1. -/
theorem v3_h7 (c : Dev nD) : W7 m ρ c (Proc.devRef .tc main_v3) = W6 m ρ c (Proc.devRef .tc main_v3) := by
  show StableHlo.after hostOps2 (W6 m ρ c) (Proc.devRef .tc main_v3) = W6 m ρ c (Proc.devRef .tc main_v3)
  after_results_simp

/-- `main_v3` at boundary 8: what the first stretches left at boundary 3. -/
theorem v3_at8 (c : Dev nD) : W8 m ρ c (Proc.devRef .tc main_v3) = W3 m ρ c (Proc.devRef .tc main_v3) :=
  (W8_of_ne m ρ c main_v3 (by decide)).trans ((v3_h7 m ρ c).trans (v3_at6 m ρ c))

/-- `main_v3` across the stretch after launch 2. -/
theorem v3_h9 (c : Dev nD) : W9 m ρ c (Proc.devRef .tc main_v3) = W8 m ρ c (Proc.devRef .tc main_v3) := by
  show StableHlo.after hostOps3 (W8 m ρ c) (Proc.devRef .tc main_v3) = W8 m ρ c (Proc.devRef .tc main_v3)
  after_results_simp

/-- `main_v3` at boundary 10: what the first stretches left at boundary 3. -/
theorem v3_at10 (c : Dev nD) : W10 m ρ c (Proc.devRef .tc main_v3) = W3 m ρ c (Proc.devRef .tc main_v3) :=
  (W10_of_ne m ρ c main_v3 (by decide)).trans ((v3_h9 m ρ c).trans (v3_at8 m ρ c))

/-- `main_v3` across the stretch after launch 3. -/
theorem v3_h11 (c : Dev nD) : W11 m ρ c (Proc.devRef .tc main_v3) = W10 m ρ c (Proc.devRef .tc main_v3) := by
  show StableHlo.after hostOps4 (W10 m ρ c) (Proc.devRef .tc main_v3) = W10 m ρ c (Proc.devRef .tc main_v3)
  after_results_simp

/-- `main_v3` at boundary 12: what the first stretches left at boundary 3. -/
theorem v3_at12 (c : Dev nD) : W12 m ρ c (Proc.devRef .tc main_v3) = W3 m ρ c (Proc.devRef .tc main_v3) :=
  (W12_of_ne m ρ c main_v3 (by decide)).trans ((v3_h11 m ρ c).trans (v3_at10 m ρ c))

/-- `main_v6` across launch 0. -/
theorem v6_at4 (c : Dev nD) : W4 m ρ c (Proc.devRef .tc main_v6) = W3 m ρ c (Proc.devRef .tc main_v6) :=
  W4_of_ne m ρ c main_v6 (by decide)

/-- `main_v6` across the stretch after launch 0. -/
theorem v6_h5 (c : Dev nD) : W5 m ρ c (Proc.devRef .tc main_v6) = W4 m ρ c (Proc.devRef .tc main_v6) := by
  show StableHlo.after hostOps1 (W4 m ρ c) (Proc.devRef .tc main_v6) = W4 m ρ c (Proc.devRef .tc main_v6)
  after_results_simp

/-- `main_v6` at boundary 6: what the first stretches left at boundary 3. -/
theorem v6_at6 (c : Dev nD) : W6 m ρ c (Proc.devRef .tc main_v6) = W3 m ρ c (Proc.devRef .tc main_v6) :=
  (W6_of_ne m ρ c main_v6 (by decide)).trans ((v6_h5 m ρ c).trans (v6_at4 m ρ c))

/-- `main_v6` across the stretch after launch 1. -/
theorem v6_h7 (c : Dev nD) : W7 m ρ c (Proc.devRef .tc main_v6) = W6 m ρ c (Proc.devRef .tc main_v6) := by
  show StableHlo.after hostOps2 (W6 m ρ c) (Proc.devRef .tc main_v6) = W6 m ρ c (Proc.devRef .tc main_v6)
  after_results_simp

/-- `main_v6` at boundary 8: what the first stretches left at boundary 3. -/
theorem v6_at8 (c : Dev nD) : W8 m ρ c (Proc.devRef .tc main_v6) = W3 m ρ c (Proc.devRef .tc main_v6) :=
  (W8_of_ne m ρ c main_v6 (by decide)).trans ((v6_h7 m ρ c).trans (v6_at6 m ρ c))

/-- `main_v6` across the stretch after launch 2. -/
theorem v6_h9 (c : Dev nD) : W9 m ρ c (Proc.devRef .tc main_v6) = W8 m ρ c (Proc.devRef .tc main_v6) := by
  show StableHlo.after hostOps3 (W8 m ρ c) (Proc.devRef .tc main_v6) = W8 m ρ c (Proc.devRef .tc main_v6)
  after_results_simp

/-- `main_v6` at boundary 10: what the first stretches left at boundary 3. -/
theorem v6_at10 (c : Dev nD) : W10 m ρ c (Proc.devRef .tc main_v6) = W3 m ρ c (Proc.devRef .tc main_v6) :=
  (W10_of_ne m ρ c main_v6 (by decide)).trans ((v6_h9 m ρ c).trans (v6_at8 m ρ c))

/-- `main_v6` across the stretch after launch 3. -/
theorem v6_h11 (c : Dev nD) : W11 m ρ c (Proc.devRef .tc main_v6) = W10 m ρ c (Proc.devRef .tc main_v6) := by
  show StableHlo.after hostOps4 (W10 m ρ c) (Proc.devRef .tc main_v6) = W10 m ρ c (Proc.devRef .tc main_v6)
  after_results_simp

/-- `main_v6` at boundary 12: what the first stretches left at boundary 3. -/
theorem v6_at12 (c : Dev nD) : W12 m ρ c (Proc.devRef .tc main_v6) = W3 m ρ c (Proc.devRef .tc main_v6) :=
  (W12_of_ne m ρ c main_v6 (by decide)).trans ((v6_h11 m ρ c).trans (v6_at10 m ρ c))

/-- `main_v30` across launch 0. -/
theorem v30_at4 (c : Dev nD) : W4 m ρ c (Proc.devRef .tc main_v30) = W3 m ρ c (Proc.devRef .tc main_v30) :=
  W4_of_ne m ρ c main_v30 (by decide)

/-- `main_v30` across the stretch after launch 0. -/
theorem v30_h5 (c : Dev nD) : W5 m ρ c (Proc.devRef .tc main_v30) = W4 m ρ c (Proc.devRef .tc main_v30) := by
  show StableHlo.after hostOps1 (W4 m ρ c) (Proc.devRef .tc main_v30) = W4 m ρ c (Proc.devRef .tc main_v30)
  after_results_simp

/-- `main_v30` at boundary 6: what the first stretches left at boundary 3. -/
theorem v30_at6 (c : Dev nD) : W6 m ρ c (Proc.devRef .tc main_v30) = W3 m ρ c (Proc.devRef .tc main_v30) :=
  (W6_of_ne m ρ c main_v30 (by decide)).trans ((v30_h5 m ρ c).trans (v30_at4 m ρ c))

/-- `main_v30` across the stretch after launch 1. -/
theorem v30_h7 (c : Dev nD) : W7 m ρ c (Proc.devRef .tc main_v30) = W6 m ρ c (Proc.devRef .tc main_v30) := by
  show StableHlo.after hostOps2 (W6 m ρ c) (Proc.devRef .tc main_v30) = W6 m ρ c (Proc.devRef .tc main_v30)
  after_results_simp

/-- `main_v30` at boundary 8: what the first stretches left at boundary 3. -/
theorem v30_at8 (c : Dev nD) : W8 m ρ c (Proc.devRef .tc main_v30) = W3 m ρ c (Proc.devRef .tc main_v30) :=
  (W8_of_ne m ρ c main_v30 (by decide)).trans ((v30_h7 m ρ c).trans (v30_at6 m ρ c))

/-- `main_v30` across the stretch after launch 2. -/
theorem v30_h9 (c : Dev nD) : W9 m ρ c (Proc.devRef .tc main_v30) = W8 m ρ c (Proc.devRef .tc main_v30) := by
  show StableHlo.after hostOps3 (W8 m ρ c) (Proc.devRef .tc main_v30) = W8 m ρ c (Proc.devRef .tc main_v30)
  after_results_simp

/-- `main_v30` at boundary 10: what the first stretches left at boundary 3. -/
theorem v30_at10 (c : Dev nD) : W10 m ρ c (Proc.devRef .tc main_v30) = W3 m ρ c (Proc.devRef .tc main_v30) :=
  (W10_of_ne m ρ c main_v30 (by decide)).trans ((v30_h9 m ρ c).trans (v30_at8 m ρ c))

/-- `main_v30` across the stretch after launch 3. -/
theorem v30_h11 (c : Dev nD) : W11 m ρ c (Proc.devRef .tc main_v30) = W10 m ρ c (Proc.devRef .tc main_v30) := by
  show StableHlo.after hostOps4 (W10 m ρ c) (Proc.devRef .tc main_v30) = W10 m ρ c (Proc.devRef .tc main_v30)
  after_results_simp

/-- `main_v30` at boundary 12: what the first stretches left at boundary 3. -/
theorem v30_at12 (c : Dev nD) : W12 m ρ c (Proc.devRef .tc main_v30) = W3 m ρ c (Proc.devRef .tc main_v30) :=
  (W12_of_ne m ρ c main_v30 (by decide)).trans ((v30_h11 m ρ c).trans (v30_at10 m ρ c))

end Cert.KernelIdeal.Carry

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibGcnLayers.lean ====
/-
  A four-layer graph convolution network on the extended reals, as functions of whole arrays.

  One layer sends node features `H : [n, f]` to `act (Â · (H · W) + b)`: a dense product with the weights, an
  aggregation of each node's neighbours along weighted edges (kept abstract here: both programs apply the very same
  gather / scale / scatter-add to the product, so nothing about it is ever opened), the bias added to every row, and an
  activation — `max(·, 0)` for the three hidden layers, the row-wise log-softmax for the last. This module states the
  three dense pieces index by index; they are what a row-tiled kernel and a whole-array host program both compute.

  * `mm A B` at `(i, j)` is `Σ_k A(i, k) · B(k, j)`.
  * `biasRelu a b` at `(i, j)` is `max (a(i, j) + b(j)) 0`, the zero being the float pattern of `+0.0`, which is never
    evaluated: both programs carry the same pattern.
  * `logSoftmax a b` at `(i, j)`, with `z = a + b` row-broadcast and `M(i) = max_k z(i, k)` (a fold of `max` from the
    pattern of `-∞`, again never evaluated), is `(z(i, j) - M(i)) - log Σ_k exp (z(i, k) - M(i))`.
-/
import Idealize.ShloMosaic.Lib.ValueIdx
import Idealize.ShloMosaic.PureOps.Ideal.Laws

noncomputable section

open scoped BigOperators

namespace Cert.Gcn

open Idealize.ShloMosaic Idealize.ShloMosaic.ValueIdx

variable {M K N : Nat}

/-- The dense product: row `i` of `A` against column `j` of `B`. -/
def mm (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply (A : (⟨2, ![M, K]⟩ : Shape).Idx → EReal) (B : (⟨2, ![K, N]⟩ : Shape).Idx → EReal) (p : Fin M) (q : Fin N) :
    mm A B (ix2 p q) = ∑ k : Fin K, A (ix2 p k) * B (ix2 k q) := rfl

/-- The float pattern of `+0.0`, as both programs carry it. -/
abbrev zeroWord : EReal := Ideal.ofBits .f32 0x00000000#32
/-- The float pattern of `-∞`, as both programs carry it. -/
abbrev negInfWord : EReal := Ideal.ofBits .f32 0xFF800000#32

/-- The bias added to every row, then the positive part. -/
def biasRelu (a : (⟨2, ![M, N]⟩ : Shape).Idx → EReal) (b : (⟨1, ![N]⟩ : Shape).Idx → EReal) :
    (⟨2, ![M, N]⟩ : Shape).Idx → EReal :=
  fun i => max (a i + b (ix1 (i 1))) zeroWord

theorem biasRelu_apply (a : (⟨2, ![M, N]⟩ : Shape).Idx → EReal) (b : (⟨1, ![N]⟩ : Shape).Idx → EReal) (p : Fin M) (q : Fin N) :
    biasRelu a b (ix2 p q) = max (a (ix2 p q) + b (ix1 q)) zeroWord := rfl

/-- A row's maximum: the fold of `max` over the row, from the pattern of `-∞`. -/
def rowMax (z : (⟨2, ![M, N]⟩ : Shape).Idx → EReal) (r : Fin M) : EReal :=
  (Finset.univ : Finset (Fin N)).fold max negInfWord (fun k => z (ix2 r k))

/-- The logits of the last layer: the bias added to every row. -/
def logits (a : (⟨2, ![M, N]⟩ : Shape).Idx → EReal) (b : (⟨1, ![N]⟩ : Shape).Idx → EReal) :
    (⟨2, ![M, N]⟩ : Shape).Idx → EReal :=
  fun i => a i + b (ix1 (i 1))

/-- The row-wise log-softmax of the logits, shifted by the row's maximum as both programs shift it. -/
def logSoftmax (a : (⟨2, ![M, N]⟩ : Shape).Idx → EReal) (b : (⟨1, ![N]⟩ : Shape).Idx → EReal) :
    (⟨2, ![M, N]⟩ : Shape).Idx → EReal :=
  fun i => (logits a b i - rowMax (logits a b) (i 0))
    - Ideal.log (∑ k : Fin N, Ideal.exp (logits a b (ix2 (i 0) k) - rowMax (logits a b) (i 0)))

theorem logSoftmax_apply (a : (⟨2, ![M, N]⟩ : Shape).Idx → EReal) (b : (⟨1, ![N]⟩ : Shape).Idx → EReal) (p : Fin M) (q : Fin N) :
    logSoftmax a b (ix2 p q) = (logits a b (ix2 p q) - rowMax (logits a b) p)
      - Ideal.log (∑ k : Fin N, Ideal.exp (logits a b (ix2 p k) - rowMax (logits a b) p)) := rfl

end Cert.Gcn

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibDenseTile.lean ====
/-
  The dense pieces of a graph network layer as a KERNEL BODY spells them on one tile, on the extended reals.

  A body that holds a tile `a : [M, N]` of pre-activations, a bias `b : [N]` and a weight matrix computes
  `max (a + b, 0)` by casting the bias to a row `[1, N]`, broadcasting the row down the tile, adding and taking the
  maximum with a splat zero; it multiplies by the weights on the matrix unit, both operands first narrowed to a shorter
  float format, into a zero accumulator. On the extended reals a change of float format is the identity, so the product
  is the dense product `Cert.Gcn.mm` and the rest is `Cert.Gcn.biasRelu` / `Cert.Gcn.logits`. The leaky rectifier
  `z ↦ z` where `z ≥ 0`, `s · z` elsewhere, with the slope `s` a float pattern both programs carry, is `leaky`;
  a kernel spells its two constants as splats, a host program as rank-0 constants broadcast to the shape.
  Each statement is an equation between whole arrays, for any extents and any evidence of the shape facts.
-/
import proofs.«123457_j55611236548999_1_alg».proof.Proof.LibMatmulNN
import proofs.«123457_j55611236548999_1_alg».proof.Proof.LibGcnLayers
import proofs.«123457_j55611236548999_1_alg».proof.Proof.LibHostKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibDenseTile

open Idealize.ShloMosaic Idealize.ShloMosaic.ValueIdx

variable {M K N : ℕ}

/-- The tile product of two operands narrowed to shorter formats, into a zero accumulator, is the dense product. -/
theorem matmul_eq_mm {ψ₁ ψ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (h1 : ψ₁.bits < FTy.f32.bits) (h2 : ψ₂.bits < FTy.f32.bits)
    (A : FVec Ideal ⟨2, ![M, K]⟩ .f32) (B : FVec Ideal ⟨2, ![K, N]⟩ .f32) :
    matmul (F := Ideal) d none (truncf ψ₁ A h1) (truncf ψ₂ B h2) (constant ⟨2, ![M, N]⟩ .f32 0x00000000#32)
      = Cert.Gcn.mm A B := by
  funext i
  obtain ⟨p, q, rfl⟩ : ∃ (p : Fin M) (q : Fin N), i = ix2 p q := ⟨i 0, i 1, eq_ix2 i⟩
  rw [Cert.LibMatmulNN.matmul_nn_apply d hlc hrc hln hrn hlb hrb none _ _ p q]
  rfl

/-- The bias cast to a row and broadcast down the tile, added: the logits. -/
theorem logits_tile (h1 : (⟨1, ![N]⟩ : Shape).ShapeCasts ⟨2, ![1, N]⟩) (h2 : (⟨2, ![1, N]⟩ : Shape).Broadcasts ⟨2, ![M, N]⟩)
    (a : FVec Ideal ⟨2, ![M, N]⟩ .f32) (b : FVec Ideal ⟨1, ![N]⟩ .f32) :
    addf (F := Ideal) a (broadcastTo ⟨2, ![M, N]⟩ (shapeCast ⟨2, ![1, N]⟩ b h1) h2) = Cert.Gcn.logits a b := by
  funext i
  obtain ⟨p, q, rfl⟩ : ∃ (p : Fin M) (q : Fin N), i = ix2 p q := ⟨i 0, i 1, eq_ix2 i⟩
  show a (ix2 p q) + broadcastTo ⟨2, ![M, N]⟩ (shapeCast ⟨2, ![1, N]⟩ b h1) h2 (ix2 p q) = _
  rw [broadcastTo_1b_ab_apply, shapeCast_a_1a_apply]
  rfl

/-- The logits' positive part against a splat zero, the tile first cast to its own shape. -/
theorem biasRelu_tile (hc : (⟨2, ![M, N]⟩ : Shape).ShapeCasts ⟨2, ![M, N]⟩)
    (h1 : (⟨1, ![N]⟩ : Shape).ShapeCasts ⟨2, ![1, N]⟩) (h2 : (⟨2, ![1, N]⟩ : Shape).Broadcasts ⟨2, ![M, N]⟩)
    (a : FVec Ideal ⟨2, ![M, N]⟩ .f32) (b : FVec Ideal ⟨1, ![N]⟩ .f32) :
    maximumf (F := Ideal) (addf (F := Ideal) (shapeCast ⟨2, ![M, N]⟩ a hc) (broadcastTo ⟨2, ![M, N]⟩ (shapeCast ⟨2, ![1, N]⟩ b h1) h2))
      (broadcast ⟨2, ![M, N]⟩ (Scalar.ofBits (F := Ideal) .f32 0x00000000#32)) = Cert.Gcn.biasRelu a b := by
  rw [shapeCast_self, logits_tile h1 h2 a b]
  rfl

/-- The leaky rectifier with slope pattern `w`: the value where it is at least zero, the slope times it elsewhere. -/
def leaky (w : BitVec 32) {s : Shape} (z : s.Idx → EReal) : s.Idx → EReal := fun i =>
  Scalar.select (FloatOps.cmpf (F := Ideal) (φ := .f32) .oge (z i) (Ideal.ofBits .f32 0x00000000#32)) (z i)
    (Ideal.ofBits .f32 w * z i)

/-- As a kernel body spells it: both constants splats. -/
theorem leaky_tile (w : BitVec 32) {s : Shape} (z : FVec Ideal s .f32) :
    select (cmpf (F := Ideal) .oge z (broadcast s (Scalar.ofBits (F := Ideal) .f32 0x00000000#32))) z
      (mulf (F := Ideal) (broadcast s (Scalar.ofBits (F := Ideal) .f32 w)) z) = leaky w z := rfl

/-- As a host program spells it: both constants of rank 0, broadcast to the shape. -/
theorem leaky_host (w : BitVec 32) {s : Shape} (h0 : (⟨0, ![]⟩ : Shape).BroadcastsInDim s ![])
    (h0' : (⟨0, ![]⟩ : Shape).BroadcastsInDim s ![]) (z : FVec Ideal s .f32) :
    select (cmpf (F := Ideal) .oge z (broadcastInDim s ![] h0 (constant (F := Ideal) ⟨0, ![]⟩ .f32 0x00000000#32))) z
      (mulf (F := Ideal) (broadcastInDim s ![] h0' (constant (F := Ideal) ⟨0, ![]⟩ .f32 w)) z) = leaky w z := by
  funext i
  show Scalar.select (FloatOps.cmpf (F := Ideal) (φ := .f32) .oge (z i) (broadcastInDim s ![] h0 (constant (F := Ideal) ⟨0, ![]⟩ .f32 0x00000000#32) i)) (z i)
    (broadcastInDim s ![] h0' (constant (F := Ideal) ⟨0, ![]⟩ .f32 w) i * z i) = _
  rw [broadcastInDim_scalar_apply, broadcastInDim_scalar_apply]
  rfl

end Cert.LibDenseTile

end
-- ==== Proof.LibRowBlock.lean ====
/-
  Row-locality of a graph network layer's dense pieces, on the extended reals.

  Row `r` of the dense product `A · W` is the sum over `k` of `A(r, k) · W(k, ·)`: it reads row `r` of `A` and
  nothing else of it; adding a bias to every row and taking the positive part act entry by entry. So a block of rows
  of `A`, put through the same pieces, gives the same block of rows of the whole result. This is what lets a kernel
  that walks a matrix in row tiles be read as one function of the whole matrix. Stated for any extents, for a tile
  index `j` and an array index `i` given with the three facts that relate what the tile holds to what the arrays hold
  along the row and the column in question.
-/
import proofs.«123457_j55611236548999_1_alg».proof.Proof.LibGcnLayers
import Idealize.ShloMosaic.Lib.ValueIdx

noncomputable section

open scoped BigOperators

namespace Cert.LibRowBlock

open Idealize.ShloMosaic Idealize.ShloMosaic.ValueIdx

variable {Mt Mb K N : ℕ}

/-- The dense product on a tile of rows is the product of the whole arrays at the row and column the tile entry
    stands for. -/
theorem mm_rows (A : (⟨2, ![Mt, K]⟩ : Shape).Idx → EReal) (a : (⟨2, ![Mb, K]⟩ : Shape).Idx → EReal)
    (w w' : (⟨2, ![K, N]⟩ : Shape).Idx → EReal)
    (j : (⟨2, ![Mb, N]⟩ : Shape).Idx) (i : (⟨2, ![Mt, N]⟩ : Shape).Idx)
    (ha : ∀ k : Fin K, a (ix2 (j 0) k) = A (ix2 (i 0) k))
    (hw : ∀ k : Fin K, w (ix2 k (j 1)) = w' (ix2 k (i 1))) :
    Cert.Gcn.mm a w j = Cert.Gcn.mm A w' i := by
  unfold Cert.Gcn.mm
  refine Finset.sum_congr rfl fun k _ => ?_
  rw [ha k, hw k]

/-- The bias and the positive part on a tile entry are those of the whole array at the entry it stands for. -/
theorem biasRelu_rows (A : (⟨2, ![Mt, N]⟩ : Shape).Idx → EReal) (a : (⟨2, ![Mb, N]⟩ : Shape).Idx → EReal)
    (b b' : (⟨1, ![N]⟩ : Shape).Idx → EReal)
    (j : (⟨2, ![Mb, N]⟩ : Shape).Idx) (i : (⟨2, ![Mt, N]⟩ : Shape).Idx)
    (ha : a j = A i) (hb : b (ix1 (j 1)) = b' (ix1 (i 1))) :
    Cert.Gcn.biasRelu a b j = Cert.Gcn.biasRelu A b' i := by
  unfold Cert.Gcn.biasRelu
  rw [ha, hb]

/-- The layer's feature transform `max (a + b, 0) · w` on a tile of rows is that of the whole arrays. -/
theorem mm_biasRelu_rows (A : (⟨2, ![Mt, K]⟩ : Shape).Idx → EReal) (a : (⟨2, ![Mb, K]⟩ : Shape).Idx → EReal)
    (b b' : (⟨1, ![K]⟩ : Shape).Idx → EReal) (w w' : (⟨2, ![K, N]⟩ : Shape).Idx → EReal)
    (j : (⟨2, ![Mb, N]⟩ : Shape).Idx) (i : (⟨2, ![Mt, N]⟩ : Shape).Idx)
    (ha : ∀ k : Fin K, a (ix2 (j 0) k) = A (ix2 (i 0) k))
    (hb : ∀ k : Fin K, b (ix1 k) = b' (ix1 k))
    (hw : ∀ k : Fin K, w (ix2 k (j 1)) = w' (ix2 k (i 1))) :
    Cert.Gcn.mm (Cert.Gcn.biasRelu a b) w j = Cert.Gcn.mm (Cert.Gcn.biasRelu A b') w' i := by
  refine mm_rows _ _ w w' j i (fun k => ?_) hw
  exact biasRelu_rows A a b b' (ix2 (j 0) k) (ix2 (i 0) k) (ha k) (hb k)

end Cert.LibRowBlock

end
-- ==== Proof.Transform0.lean ====
/-
  Launch 0 of the program: the first layer's feature transform `x · W`, tiled over the rows.

  Ten grid points; point `t` stages rows `10000·t … 10000·t + 9999` of the node features `x : [100000, 4]` and the
  whole weight matrix `W : [4, 16]` (and a vector of four zeros the body never reads), and writes back the same rows of
  the result. A row of the dense product reads the same row of its left operand only, so each tile is a block of rows
  of `mm x W` over the whole arrays and the ten blocks tile the result. Stated at any contents `V` the launch is
  entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.Transform0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- What the result array ends holding. -/
abbrev layer (x : S100000x4.Idx → EReal) (w : S4x16.Idx → EReal) : S100000x16.Idx → EReal := Cert.Gcn.mm x w

/-- The body's one stored value, on a tile: the dense product of the tile with the weights. -/
theorem tile_eq (x0 : Vec Ideal S10000x4 .f32) (x2 : Vec Ideal S4x16 .f32) :
    k0_pay1 (F := Ideal) x0 x2 = Cert.Gcn.mm x0 x2 :=
  Cert.LibDenseTile.matmul_eq_mm dot_S10000x4_S4x16_S10000x16_1_0_0_1_n_n rfl rfl rfl rfl rfl rfl
    bitsLt_bf16_f32 bitsLt_bf16_f32 x0 x2

theorem index_facts : ∀ t : Fin cfg0.N,
    win0_0.index t (0 : Fin 2) = win0_3.index t (0 : Fin 2) ∧ win0_0.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

theorem index_onto : ∀ q : Fin 10, ∃ t : Fin cfg0.N, win0_3.index t = ![q.val, 0] :=
  (by decide +kernel : ∀ q : Fin 10, ∃ t : Fin grid0.N, win0_3.index t = ![q.val, 0])

/-- WHAT POINT `t` WRITES BACK is block `t` of `mm x W` of the arrays as the launch finds them. -/
theorem flushed_eq (c : Dev nD) (t : Fin cfg0.N) :
    (dat0 V c).flushed 3 t = ((cfg0.win 3).blk t).view.read (Elt Ideal) (layer (V c main_arg0) (V c main_arg3)) := by
  show (cfg0.win 3).cut (grid0.coords t) ((dat0 V c).after 3 t) = _
  rw [after0_3]
  unfold out0_3
  rw [View.canon_unit_zero zero2]
  simp only [View.ld_unit_zero (S := S10000x4) zero2, View.ld_unit_zero (S := S4x16) zero2]
  rw [tile_eq]
  obtain ⟨e0, e1, e2, e3, e4, e5⟩ := index_facts t
  funext j
  show Cert.Gcn.mm (iblk0 V c 0 t) (iblk0 V c 2 t) j
    = Cert.Gcn.mm (V c main_arg0) (V c main_arg3) (((cfg0.win 3).blk t).view.emb j)
  refine Cert.LibRowBlock.mm_rows _ _ _ _ j _ (fun k => ?_) (fun k => ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 4 + 1 * k.val = k.val; omega
  · show V c main_arg3 (((cfg0.win 2).blk t).view.emb (ix2 k (j 1))) = V c main_arg3 (ix2 k ((((cfg0.win 3).blk t).view.emb j) 1))
    refine congrArg (V c main_arg3) (funext fun a => Fin.ext ?_)
    match a with
    | ⟨0, _⟩ => show win0_2.index t (0 : Fin 2) * 4 + 1 * k.val = k.val; omega
    | ⟨1, _⟩ => show win0_2.index t (1 : Fin 2) * 16 + 1 * (j 1).val = win0_3.index t (1 : Fin 2) * 16 + 1 * (j 1).val; omega

theorem mem_block (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v32).slice (win0_3.rect t)).set ↔ _
  rw [View.set_slice_whole, Rect.mem_set_unit]
  exact Iff.rfl

theorem covered (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 16 ≤ (i 1).val ∧ (i 1).val < win0_3.index t (1 : Fin 2) * 16 + 16; omega

/-- THE RESULT ARRAY after the launch. -/
theorem final (c : Dev nD) : (dat0 V c).arrAt 3 cfg0.N = layer (V c main_arg0) (V c main_arg3) :=
  (dat0 V c).arrAt_eq_of_cover 3 (layer (V c main_arg0) (V c main_arg3)) (fun t _ => flushed_eq V c t) (covered)

end Cert.KernelIdeal.Transform0

end
-- ==== Proof.Transform1.lean ====
/-
  Launch 1 of the program: the feature transform `max (pre + b, 0) · W` of a layer, tiled over the rows.

  The launch walks ten grid points; at point `t` it stages rows `10000·t … 10000·t + 9999` of the pre-activations
  `pre : [100000, 16]`, the whole bias `b : [16]` and the whole weight matrix `W : [16, 16]`, and writes back the same
  rows of the result. A row of the dense product depends on the same row of its left operand only, and the bias and
  the positive part act entry by entry, so the tile the body computes is the block of rows of
  `mm (biasRelu pre b) W` taken over the whole arrays; the ten blocks tile the result, which therefore ends holding that
  function of the arrays the launch finds. Stated at any contents `V` the launch is entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.Transform1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- What the result array ends holding, as a function of the three arrays the launch reads. -/
abbrev layer (pre : S100000x16.Idx → EReal) (b : S16.Idx → EReal) (w : S16x16.Idx → EReal) : S100000x16.Idx → EReal :=
  Cert.Gcn.mm (Cert.Gcn.biasRelu pre b) w

/-- The body's one stored value, on a tile: the dense product of the rectified, biased tile with the weights. -/
theorem tile_eq (x0 : Vec Ideal S10000x16 .f32) (x1 : Vec Ideal S16 .f32) (x2 : Vec Ideal S16x16 .f32) :
    k1_pay1 (F := Ideal) x0 x1 x2 = Cert.Gcn.mm (Cert.Gcn.biasRelu x0 x1) x2 := by
  show matmul (F := Ideal) dot_S10000x16_S16x16_S10000x16_1_0_0_1_n_n none
      (truncf .bf16 (maximumf (F := Ideal) (addf (F := Ideal) (shapeCast S10000x16 x0 shapeCasts_S10000x16_S10000x16)
        (broadcastTo S10000x16 (shapeCast S1x16 x1 shapeCasts_S16_S1x16) broadcasts_S1x16_S10000x16))
        (broadcast S10000x16 (Scalar.ofBits (F := Ideal) .f32 0x00000000#32))) bitsLt_bf16_f32)
      (truncf .bf16 x2 bitsLt_bf16_f32) (constant S10000x16 .f32 0x00000000#32) = _
  rw [Cert.LibDenseTile.biasRelu_tile shapeCasts_S10000x16_S10000x16 shapeCasts_S16_S1x16 broadcasts_S1x16_S10000x16 x0 x1]
  exact Cert.LibDenseTile.matmul_eq_mm dot_S10000x16_S16x16_S10000x16_1_0_0_1_n_n rfl rfl rfl rfl rfl rfl
    bitsLt_bf16_f32 bitsLt_bf16_f32 _ x2

/-- The printed index maps, decided over the ten points: the pre-activations' block moves with the result's along the
    rows, every other block index is zero, and the result's row block is the point's number. -/
theorem index_facts : ∀ t : Fin cfg1.N,
    win1_0.index t (0 : Fin 2) = win1_3.index t (0 : Fin 2) ∧ win1_0.index t (1 : Fin 2) = 0
    ∧ win1_1.index t (0 : Fin 1) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block of the result is some point's. -/
theorem index_onto : ∀ q : Fin 10, ∃ t : Fin cfg1.N, win1_3.index t = ![q.val, 0] :=
  (by decide +kernel : ∀ q : Fin 10, ∃ t : Fin grid1.N, win1_3.index t = ![q.val, 0])

/-- WHAT POINT `t` WRITES BACK is block `t` of `layer` of the arrays as the launch finds them. -/
theorem flushed_eq (c : Dev nD) (t : Fin cfg1.N) :
    (dat1 V c).flushed 3 t = ((cfg1.win 3).blk t).view.read (Elt Ideal)
      (layer (V c main_v44) (V c main_arg4) (V c main_arg5)) := by
  show (cfg1.win 3).cut (grid1.coords t) ((dat1 V c).after 3 t) = _
  rw [after1_3]
  unfold out1_3
  rw [View.canon_unit_zero zero2]
  simp only [View.ld_unit_zero (S := S10000x16) zero2, View.ld_unit_zero (S := S16) zero1, View.ld_unit_zero (S := S16x16) zero2]
  rw [tile_eq]
  obtain ⟨e0, e1, e2, e3, e4, e5, e6⟩ := index_facts t
  funext j
  show Cert.Gcn.mm (Cert.Gcn.biasRelu (iblk1 V c 0 t) (iblk1 V c 1 t)) (iblk1 V c 2 t) j
    = Cert.Gcn.mm (Cert.Gcn.biasRelu (V c main_v44) (V c main_arg4)) (V c main_arg5) (((cfg1.win 3).blk t).view.emb j)
  refine Cert.LibRowBlock.mm_biasRelu_rows _ _ _ _ _ _ j _ (fun k => ?_) (fun k => ?_) (fun k => ?_)
  · show V c main_v44 (((cfg1.win 0).blk t).view.emb (ix2 (j 0) k)) = V c main_v44 (ix2 ((((cfg1.win 3).blk t).view.emb j) 0) k)
    refine congrArg (V c main_v44) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * k.val = k.val; omega
  · show V c main_arg4 (((cfg1.win 1).blk t).view.emb (ix1 k)) = V c main_arg4 (ix1 k)
    refine congrArg (V c main_arg4) (funext fun a => Fin.ext ?_)
    match a with
    | ⟨0, _⟩ => show win1_1.index t (0 : Fin 1) * 16 + 1 * k.val = k.val; omega
  · show V c main_arg5 (((cfg1.win 2).blk t).view.emb (ix2 k (j 1))) = V c main_arg5 (ix2 k ((((cfg1.win 3).blk t).view.emb j) 1))
    refine congrArg (V c main_arg5) (funext fun a => Fin.ext ?_)
    match a with
    | ⟨0, _⟩ => show win1_2.index t (0 : Fin 2) * 16 + 1 * k.val = k.val; omega
    | ⟨1, _⟩ => show win1_2.index t (1 : Fin 2) * 16 + 1 * (j 1).val = win1_3.index t (1 : Fin 2) * 16 + 1 * (j 1).val; omega

/-- An index of the result is in point `t`'s block iff each coordinate is in the block's range on its axis. -/
theorem mem_block (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v45).slice (win1_3.rect t)).set ↔ _
  rw [View.set_slice_whole, Rect.mem_set_unit]
  exact Iff.rfl

/-- The ten row blocks cover the result: row `r` is in the block of point `r / 10000`. -/
theorem covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- THE RESULT ARRAY after the launch: `layer` of the arrays the launch was entered with. -/
theorem final (c : Dev nD) :
    (dat1 V c).arrAt 3 cfg1.N = layer (V c main_v44) (V c main_arg4) (V c main_arg5) :=
  (dat1 V c).arrAt_eq_of_cover 3 (layer (V c main_v44) (V c main_arg4) (V c main_arg5)) (fun t _ => flushed_eq V c t) (covered)

end Cert.KernelIdeal.Transform1

end
-- ==== Proof.Transform2.lean ====
/-
  Launch 2 of the program: the feature transform `max (pre + b, 0) · W` of a layer, tiled over the rows.

  The launch walks ten grid points; at point `t` it stages rows `10000·t … 10000·t + 9999` of the pre-activations
  `pre : [100000, 16]`, the whole bias `b : [16]` and the whole weight matrix `W : [16, 16]`, and writes back the same
  rows of the result. A row of the dense product depends on the same row of its left operand only, and the bias and
  the positive part act entry by entry, so the tile the body computes is the block of rows of
  `mm (biasRelu pre b) W` taken over the whole arrays; the ten blocks tile the result, which therefore ends holding that
  function of the arrays the launch finds. Stated at any contents `V` the launch is entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.Transform2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- What the result array ends holding, as a function of the three arrays the launch reads. -/
abbrev layer (pre : S100000x16.Idx → EReal) (b : S16.Idx → EReal) (w : S16x16.Idx → EReal) : S100000x16.Idx → EReal :=
  Cert.Gcn.mm (Cert.Gcn.biasRelu pre b) w

/-- The body's one stored value, on a tile: the dense product of the rectified, biased tile with the weights. -/
theorem tile_eq (x0 : Vec Ideal S10000x16 .f32) (x1 : Vec Ideal S16 .f32) (x2 : Vec Ideal S16x16 .f32) :
    k2_pay1 (F := Ideal) x0 x1 x2 = Cert.Gcn.mm (Cert.Gcn.biasRelu x0 x1) x2 := by
  show matmul (F := Ideal) dot_S10000x16_S16x16_S10000x16_1_0_0_1_n_n none
      (truncf .bf16 (maximumf (F := Ideal) (addf (F := Ideal) (shapeCast S10000x16 x0 shapeCasts_S10000x16_S10000x16)
        (broadcastTo S10000x16 (shapeCast S1x16 x1 shapeCasts_S16_S1x16) broadcasts_S1x16_S10000x16))
        (broadcast S10000x16 (Scalar.ofBits (F := Ideal) .f32 0x00000000#32))) bitsLt_bf16_f32)
      (truncf .bf16 x2 bitsLt_bf16_f32) (constant S10000x16 .f32 0x00000000#32) = _
  rw [Cert.LibDenseTile.biasRelu_tile shapeCasts_S10000x16_S10000x16 shapeCasts_S16_S1x16 broadcasts_S1x16_S10000x16 x0 x1]
  exact Cert.LibDenseTile.matmul_eq_mm dot_S10000x16_S16x16_S10000x16_1_0_0_1_n_n rfl rfl rfl rfl rfl rfl
    bitsLt_bf16_f32 bitsLt_bf16_f32 _ x2

/-- The printed index maps, decided over the ten points: the pre-activations' block moves with the result's along the
    rows, every other block index is zero, and the result's row block is the point's number. -/
theorem index_facts : ∀ t : Fin cfg2.N,
    win2_0.index t (0 : Fin 2) = win2_3.index t (0 : Fin 2) ∧ win2_0.index t (1 : Fin 2) = 0
    ∧ win2_1.index t (0 : Fin 1) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block of the result is some point's. -/
theorem index_onto : ∀ q : Fin 10, ∃ t : Fin cfg2.N, win2_3.index t = ![q.val, 0] :=
  (by decide +kernel : ∀ q : Fin 10, ∃ t : Fin grid2.N, win2_3.index t = ![q.val, 0])

/-- WHAT POINT `t` WRITES BACK is block `t` of `layer` of the arrays as the launch finds them. -/
theorem flushed_eq (c : Dev nD) (t : Fin cfg2.N) :
    (dat2 V c).flushed 3 t = ((cfg2.win 3).blk t).view.read (Elt Ideal)
      (layer (V c main_v57) (V c main_arg6) (V c main_arg7)) := by
  show (cfg2.win 3).cut (grid2.coords t) ((dat2 V c).after 3 t) = _
  rw [after2_3]
  unfold out2_3
  rw [View.canon_unit_zero zero2]
  simp only [View.ld_unit_zero (S := S10000x16) zero2, View.ld_unit_zero (S := S16) zero1, View.ld_unit_zero (S := S16x16) zero2]
  rw [tile_eq]
  obtain ⟨e0, e1, e2, e3, e4, e5, e6⟩ := index_facts t
  funext j
  show Cert.Gcn.mm (Cert.Gcn.biasRelu (iblk2 V c 0 t) (iblk2 V c 1 t)) (iblk2 V c 2 t) j
    = Cert.Gcn.mm (Cert.Gcn.biasRelu (V c main_v57) (V c main_arg6)) (V c main_arg7) (((cfg2.win 3).blk t).view.emb j)
  refine Cert.LibRowBlock.mm_biasRelu_rows _ _ _ _ _ _ j _ (fun k => ?_) (fun k => ?_) (fun k => ?_)
  · show V c main_v57 (((cfg2.win 0).blk t).view.emb (ix2 (j 0) k)) = V c main_v57 (ix2 ((((cfg2.win 3).blk t).view.emb j) 0) k)
    refine congrArg (V c main_v57) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 16 + 1 * k.val = k.val; omega
  · show V c main_arg6 (((cfg2.win 1).blk t).view.emb (ix1 k)) = V c main_arg6 (ix1 k)
    refine congrArg (V c main_arg6) (funext fun a => Fin.ext ?_)
    match a with
    | ⟨0, _⟩ => show win2_1.index t (0 : Fin 1) * 16 + 1 * k.val = k.val; omega
  · show V c main_arg7 (((cfg2.win 2).blk t).view.emb (ix2 k (j 1))) = V c main_arg7 (ix2 k ((((cfg2.win 3).blk t).view.emb j) 1))
    refine congrArg (V c main_arg7) (funext fun a => Fin.ext ?_)
    match a with
    | ⟨0, _⟩ => show win2_2.index t (0 : Fin 2) * 16 + 1 * k.val = k.val; omega
    | ⟨1, _⟩ => show win2_2.index t (1 : Fin 2) * 16 + 1 * (j 1).val = win2_3.index t (1 : Fin 2) * 16 + 1 * (j 1).val; omega

/-- An index of the result is in point `t`'s block iff each coordinate is in the block's range on its axis. -/
theorem mem_block (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v58).slice (win2_3.rect t)).set ↔ _
  rw [View.set_slice_whole, Rect.mem_set_unit]
  exact Iff.rfl

/-- The ten row blocks cover the result: row `r` is in the block of point `r / 10000`. -/
theorem covered (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := index_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 16 ≤ (i 1).val ∧ (i 1).val < win2_3.index t (1 : Fin 2) * 16 + 16; omega

/-- THE RESULT ARRAY after the launch: `layer` of the arrays the launch was entered with. -/
theorem final (c : Dev nD) :
    (dat2 V c).arrAt 3 cfg2.N = layer (V c main_v57) (V c main_arg6) (V c main_arg7) :=
  (dat2 V c).arrAt_eq_of_cover 3 (layer (V c main_v57) (V c main_arg6) (V c main_arg7)) (fun t _ => flushed_eq V c t) (covered)

end Cert.KernelIdeal.Transform2

end
-- ==== Proof.Transform3.lean ====
/-
  Launch 3 of the program: the feature transform `max (pre + b, 0) · W` of a layer, tiled over the rows.

  The launch walks ten grid points; at point `t` it stages rows `10000·t … 10000·t + 9999` of the pre-activations
  `pre : [100000, 16]`, the whole bias `b : [16]` and the whole weight matrix `W : [16, 16]`, and writes back the same
  rows of the result. A row of the dense product depends on the same row of its left operand only, and the bias and
  the positive part act entry by entry, so the tile the body computes is the block of rows of
  `mm (biasRelu pre b) W` taken over the whole arrays; the ten blocks tile the result, which therefore ends holding that
  function of the arrays the launch finds. Stated at any contents `V` the launch is entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.Transform3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- What the result array ends holding, as a function of the three arrays the launch reads. -/
abbrev layer (pre : S100000x16.Idx → EReal) (b : S16.Idx → EReal) (w : S16x16.Idx → EReal) : S100000x16.Idx → EReal :=
  Cert.Gcn.mm (Cert.Gcn.biasRelu pre b) w

/-- The body's one stored value, on a tile: the dense product of the rectified, biased tile with the weights. -/
theorem tile_eq (x0 : Vec Ideal S10000x16 .f32) (x1 : Vec Ideal S16 .f32) (x2 : Vec Ideal S16x16 .f32) :
    k3_pay1 (F := Ideal) x0 x1 x2 = Cert.Gcn.mm (Cert.Gcn.biasRelu x0 x1) x2 := by
  show matmul (F := Ideal) dot_S10000x16_S16x16_S10000x16_1_0_0_1_n_n none
      (truncf .bf16 (maximumf (F := Ideal) (addf (F := Ideal) (shapeCast S10000x16 x0 shapeCasts_S10000x16_S10000x16)
        (broadcastTo S10000x16 (shapeCast S1x16 x1 shapeCasts_S16_S1x16) broadcasts_S1x16_S10000x16))
        (broadcast S10000x16 (Scalar.ofBits (F := Ideal) .f32 0x00000000#32))) bitsLt_bf16_f32)
      (truncf .bf16 x2 bitsLt_bf16_f32) (constant S10000x16 .f32 0x00000000#32) = _
  rw [Cert.LibDenseTile.biasRelu_tile shapeCasts_S10000x16_S10000x16 shapeCasts_S16_S1x16 broadcasts_S1x16_S10000x16 x0 x1]
  exact Cert.LibDenseTile.matmul_eq_mm dot_S10000x16_S16x16_S10000x16_1_0_0_1_n_n rfl rfl rfl rfl rfl rfl
    bitsLt_bf16_f32 bitsLt_bf16_f32 _ x2

/-- The printed index maps, decided over the ten points: the pre-activations' block moves with the result's along the
    rows, every other block index is zero, and the result's row block is the point's number. -/
theorem index_facts : ∀ t : Fin cfg3.N,
    win3_0.index t (0 : Fin 2) = win3_3.index t (0 : Fin 2) ∧ win3_0.index t (1 : Fin 2) = 0
    ∧ win3_1.index t (0 : Fin 1) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block of the result is some point's. -/
theorem index_onto : ∀ q : Fin 10, ∃ t : Fin cfg3.N, win3_3.index t = ![q.val, 0] :=
  (by decide +kernel : ∀ q : Fin 10, ∃ t : Fin grid3.N, win3_3.index t = ![q.val, 0])

/-- WHAT POINT `t` WRITES BACK is block `t` of `layer` of the arrays as the launch finds them. -/
theorem flushed_eq (c : Dev nD) (t : Fin cfg3.N) :
    (dat3 V c).flushed 3 t = ((cfg3.win 3).blk t).view.read (Elt Ideal)
      (layer (V c main_v70) (V c main_arg8) (V c main_arg9)) := by
  show (cfg3.win 3).cut (grid3.coords t) ((dat3 V c).after 3 t) = _
  rw [after3_3]
  unfold out3_3
  rw [View.canon_unit_zero zero2]
  simp only [View.ld_unit_zero (S := S10000x16) zero2, View.ld_unit_zero (S := S16) zero1, View.ld_unit_zero (S := S16x16) zero2]
  rw [tile_eq]
  obtain ⟨e0, e1, e2, e3, e4, e5, e6⟩ := index_facts t
  funext j
  show Cert.Gcn.mm (Cert.Gcn.biasRelu (iblk3 V c 0 t) (iblk3 V c 1 t)) (iblk3 V c 2 t) j
    = Cert.Gcn.mm (Cert.Gcn.biasRelu (V c main_v70) (V c main_arg8)) (V c main_arg9) (((cfg3.win 3).blk t).view.emb j)
  refine Cert.LibRowBlock.mm_biasRelu_rows _ _ _ _ _ _ j _ (fun k => ?_) (fun k => ?_) (fun k => ?_)
  · show V c main_v70 (((cfg3.win 0).blk t).view.emb (ix2 (j 0) k)) = V c main_v70 (ix2 ((((cfg3.win 3).blk t).view.emb j) 0) k)
    refine congrArg (V c main_v70) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 16 + 1 * k.val = k.val; omega
  · show V c main_arg8 (((cfg3.win 1).blk t).view.emb (ix1 k)) = V c main_arg8 (ix1 k)
    refine congrArg (V c main_arg8) (funext fun a => Fin.ext ?_)
    match a with
    | ⟨0, _⟩ => show win3_1.index t (0 : Fin 1) * 16 + 1 * k.val = k.val; omega
  · show V c main_arg9 (((cfg3.win 2).blk t).view.emb (ix2 k (j 1))) = V c main_arg9 (ix2 k ((((cfg3.win 3).blk t).view.emb j) 1))
    refine congrArg (V c main_arg9) (funext fun a => Fin.ext ?_)
    match a with
    | ⟨0, _⟩ => show win3_2.index t (0 : Fin 2) * 16 + 1 * k.val = k.val; omega
    | ⟨1, _⟩ => show win3_2.index t (1 : Fin 2) * 16 + 1 * (j 1).val = win3_3.index t (1 : Fin 2) * 16 + 1 * (j 1).val; omega

/-- An index of the result is in point `t`'s block iff each coordinate is in the block's range on its axis. -/
theorem mem_block (t : Fin cfg3.N) (i : S100000x16.Idx) :
    i ∈ ((cfg3.win 3).blk t).view.set ↔ ∀ a : Fin 2, win3_3.index t a * S10000x16.size a ≤ (i a).val ∧ (i a).val < win3_3.index t a * S10000x16.size a + S10000x16.size a := by
  show i ∈ ((View.whole main_v71).slice (win3_3.rect t)).set ↔ _
  rw [View.set_slice_whole, Rect.mem_set_unit]
  exact Iff.rfl

/-- The ten row blocks cover the result: row `r` is in the block of point `r / 10000`. -/
theorem covered (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  obtain ⟨t, ht⟩ := index_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 16 ≤ (i 1).val ∧ (i 1).val < win3_3.index t (1 : Fin 2) * 16 + 16; omega

/-- THE RESULT ARRAY after the launch: `layer` of the arrays the launch was entered with. -/
theorem final (c : Dev nD) :
    (dat3 V c).arrAt 3 cfg3.N = layer (V c main_v70) (V c main_arg8) (V c main_arg9) :=
  (dat3 V c).arrAt_eq_of_cover 3 (layer (V c main_v70) (V c main_arg8) (V c main_arg9)) (fun t _ => flushed_eq V c t) (covered)

end Cert.KernelIdeal.Transform3

end
-- ==== Proof.Transform4.lean ====
/-
  Launch 4 of the program: the feature transform `max (pre + b, 0) · W` of a layer, tiled over the rows.

  The launch walks ten grid points; at point `t` it stages rows `10000·t … 10000·t + 9999` of the pre-activations
  `pre : [100000, 16]`, the whole bias `b : [16]` and the whole weight matrix `W : [16, 16]`, and writes back the same
  rows of the result. A row of the dense product depends on the same row of its left operand only, and the bias and
  the positive part act entry by entry, so the tile the body computes is the block of rows of
  `mm (biasRelu pre b) W` taken over the whole arrays; the ten blocks tile the result, which therefore ends holding that
  function of the arrays the launch finds. Stated at any contents `V` the launch is entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.Transform4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- What the result array ends holding, as a function of the three arrays the launch reads. -/
abbrev layer (pre : S100000x16.Idx → EReal) (b : S16.Idx → EReal) (w : S16x16.Idx → EReal) : S100000x16.Idx → EReal :=
  Cert.Gcn.mm (Cert.Gcn.biasRelu pre b) w

/-- The body's one stored value, on a tile: the dense product of the rectified, biased tile with the weights. -/
theorem tile_eq (x0 : Vec Ideal S10000x16 .f32) (x1 : Vec Ideal S16 .f32) (x2 : Vec Ideal S16x16 .f32) :
    k4_pay1 (F := Ideal) x0 x1 x2 = Cert.Gcn.mm (Cert.Gcn.biasRelu x0 x1) x2 := by
  show matmul (F := Ideal) dot_S10000x16_S16x16_S10000x16_1_0_0_1_n_n none
      (truncf .bf16 (maximumf (F := Ideal) (addf (F := Ideal) (shapeCast S10000x16 x0 shapeCasts_S10000x16_S10000x16)
        (broadcastTo S10000x16 (shapeCast S1x16 x1 shapeCasts_S16_S1x16) broadcasts_S1x16_S10000x16))
        (broadcast S10000x16 (Scalar.ofBits (F := Ideal) .f32 0x00000000#32))) bitsLt_bf16_f32)
      (truncf .bf16 x2 bitsLt_bf16_f32) (constant S10000x16 .f32 0x00000000#32) = _
  rw [Cert.LibDenseTile.biasRelu_tile shapeCasts_S10000x16_S10000x16 shapeCasts_S16_S1x16 broadcasts_S1x16_S10000x16 x0 x1]
  exact Cert.LibDenseTile.matmul_eq_mm dot_S10000x16_S16x16_S10000x16_1_0_0_1_n_n rfl rfl rfl rfl rfl rfl
    bitsLt_bf16_f32 bitsLt_bf16_f32 _ x2

/-- The printed index maps, decided over the ten points: the pre-activations' block moves with the result's along the
    rows, every other block index is zero, and the result's row block is the point's number. -/
theorem index_facts : ∀ t : Fin cfg4.N,
    win4_0.index t (0 : Fin 2) = win4_3.index t (0 : Fin 2) ∧ win4_0.index t (1 : Fin 2) = 0
    ∧ win4_1.index t (0 : Fin 1) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block of the result is some point's. -/
theorem index_onto : ∀ q : Fin 10, ∃ t : Fin cfg4.N, win4_3.index t = ![q.val, 0] :=
  (by decide +kernel : ∀ q : Fin 10, ∃ t : Fin grid4.N, win4_3.index t = ![q.val, 0])

/-- WHAT POINT `t` WRITES BACK is block `t` of `layer` of the arrays as the launch finds them. -/
theorem flushed_eq (c : Dev nD) (t : Fin cfg4.N) :
    (dat4 V c).flushed 3 t = ((cfg4.win 3).blk t).view.read (Elt Ideal)
      (layer (V c main_v83) (V c main_arg10) (V c main_arg11)) := by
  show (cfg4.win 3).cut (grid4.coords t) ((dat4 V c).after 3 t) = _
  rw [after4_3]
  unfold out4_3
  rw [View.canon_unit_zero zero2]
  simp only [View.ld_unit_zero (S := S10000x16) zero2, View.ld_unit_zero (S := S16) zero1, View.ld_unit_zero (S := S16x16) zero2]
  rw [tile_eq]
  obtain ⟨e0, e1, e2, e3, e4, e5, e6⟩ := index_facts t
  funext j
  show Cert.Gcn.mm (Cert.Gcn.biasRelu (iblk4 V c 0 t) (iblk4 V c 1 t)) (iblk4 V c 2 t) j
    = Cert.Gcn.mm (Cert.Gcn.biasRelu (V c main_v83) (V c main_arg10)) (V c main_arg11) (((cfg4.win 3).blk t).view.emb j)
  refine Cert.LibRowBlock.mm_biasRelu_rows _ _ _ _ _ _ j _ (fun k => ?_) (fun k => ?_) (fun k => ?_)
  · show V c main_v83 (((cfg4.win 0).blk t).view.emb (ix2 (j 0) k)) = V c main_v83 (ix2 ((((cfg4.win 3).blk t).view.emb j) 0) k)
    refine congrArg (V c main_v83) (funext fun a => Fin.ext ?_)
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 16 + 1 * k.val = k.val; omega
  · show V c main_arg10 (((cfg4.win 1).blk t).view.emb (ix1 k)) = V c main_arg10 (ix1 k)
    refine congrArg (V c main_arg10) (funext fun a => Fin.ext ?_)
    match a with
    | ⟨0, _⟩ => show win4_1.index t (0 : Fin 1) * 16 + 1 * k.val = k.val; omega
  · show V c main_arg11 (((cfg4.win 2).blk t).view.emb (ix2 k (j 1))) = V c main_arg11 (ix2 k ((((cfg4.win 3).blk t).view.emb j) 1))
    refine congrArg (V c main_arg11) (funext fun a => Fin.ext ?_)
    match a with
    | ⟨0, _⟩ => show win4_2.index t (0 : Fin 2) * 16 + 1 * k.val = k.val; omega
    | ⟨1, _⟩ => show win4_2.index t (1 : Fin 2) * 16 + 1 * (j 1).val = win4_3.index t (1 : Fin 2) * 16 + 1 * (j 1).val; omega

/-- An index of the result is in point `t`'s block iff each coordinate is in the block's range on its axis. -/
theorem mem_block (t : Fin cfg4.N) (i : S100000x16.Idx) :
    i ∈ ((cfg4.win 3).blk t).view.set ↔ ∀ a : Fin 2, win4_3.index t a * S10000x16.size a ≤ (i a).val ∧ (i a).val < win4_3.index t a * S10000x16.size a + S10000x16.size a := by
  show i ∈ ((View.whole main_v84).slice (win4_3.rect t)).set ↔ _
  rw [View.set_slice_whole, Rect.mem_set_unit]
  exact Iff.rfl

/-- The ten row blocks cover the result: row `r` is in the block of point `r / 10000`. -/
theorem covered (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  obtain ⟨t, ht⟩ := index_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 16 ≤ (i 1).val ∧ (i 1).val < win4_3.index t (1 : Fin 2) * 16 + 16; omega

/-- THE RESULT ARRAY after the launch: `layer` of the arrays the launch was entered with. -/
theorem final (c : Dev nD) :
    (dat4 V c).arrAt 3 cfg4.N = layer (V c main_v83) (V c main_arg10) (V c main_arg11) :=
  (dat4 V c).arrAt_eq_of_cover 3 (layer (V c main_v83) (V c main_arg10) (V c main_arg11)) (fun t _ => flushed_eq V c t) (covered)

end Cert.KernelIdeal.Transform4

end
-- ==== Proof.BiasRelu5.lean ====
/-
  Launch 5 of the program: the last layer's bias and positive part `max (pre + b, 0)`, tiled over the rows.

  Ten grid points; point `t` stages rows `10000·t … 10000·t + 9999` of `pre : [100000, 16]` and the whole bias
  `b : [16]`, and writes back the same rows of the result. Both operations act entry by entry, so each tile is a block
  of rows of `biasRelu pre b` over the whole arrays and the ten blocks tile the result. Stated at any contents `V`
  the launch is entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.BiasRelu5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

abbrev layer (pre : S100000x16.Idx → EReal) (b : S16.Idx → EReal) : S100000x16.Idx → EReal := Cert.Gcn.biasRelu pre b

/-- The body's one stored value, on a tile. -/
theorem tile_eq (x0 : Vec Ideal S10000x16 .f32) (x1 : Vec Ideal S16 .f32) :
    k5_pay1 (F := Ideal) x0 x1 = Cert.Gcn.biasRelu x0 x1 :=
  Cert.LibDenseTile.biasRelu_tile shapeCasts_S10000x16_S10000x16 shapeCasts_S16_S1x16 broadcasts_S1x16_S10000x16 x0 x1

theorem index_facts : ∀ t : Fin cfg5.N,
    win5_0.index t (0 : Fin 2) = win5_2.index t (0 : Fin 2) ∧ win5_0.index t (1 : Fin 2) = win5_2.index t (1 : Fin 2)
    ∧ win5_1.index t (0 : Fin 1) = 0
    ∧ win5_2.index t (1 : Fin 2) = 0 ∧ win5_2.index t (0 : Fin 2) ≤ 9 :=
  (by decide +kernel : ∀ t : Fin grid5.N, _)

theorem index_onto : ∀ q : Fin 10, ∃ t : Fin cfg5.N, win5_2.index t = ![q.val, 0] :=
  (by decide +kernel : ∀ q : Fin 10, ∃ t : Fin grid5.N, win5_2.index t = ![q.val, 0])

theorem flushed_eq (c : Dev nD) (t : Fin cfg5.N) :
    (dat5 V c).flushed 2 t = ((cfg5.win 2).blk t).view.read (Elt Ideal) (layer (V c main_v96) (V c main_arg12)) := by
  show (cfg5.win 2).cut (grid5.coords t) ((dat5 V c).after 2 t) = _
  rw [after5_2]
  unfold out5_2
  rw [View.canon_unit_zero zero2]
  simp only [View.ld_unit_zero (S := S10000x16) zero2, View.ld_unit_zero (S := S16) zero1]
  rw [tile_eq]
  obtain ⟨e0, e1, e2, e3, e4⟩ := index_facts t
  funext j
  show Cert.Gcn.biasRelu (iblk5 V c 0 t) (iblk5 V c 1 t) j
    = Cert.Gcn.biasRelu (V c main_v96) (V c main_arg12) (((cfg5.win 2).blk t).view.emb j)
  refine Cert.LibRowBlock.biasRelu_rows _ _ _ _ j _ ?_ ?_
  · show V c main_v96 (((cfg5.win 0).blk t).view.emb j) = V c main_v96 (((cfg5.win 2).blk t).view.emb j)
    refine congrArg (V c main_v96) (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 16 + 1 * (j 1).val = win5_2.index t (1 : Fin 2) * 16 + 1 * (j 1).val; omega
  · show V c main_arg12 (((cfg5.win 1).blk t).view.emb (ix1 (j 1))) = V c main_arg12 (ix1 ((((cfg5.win 2).blk t).view.emb j) 1))
    refine congrArg (V c main_arg12) (funext fun a => Fin.ext ?_)
    match a with
    | ⟨0, _⟩ => show win5_1.index t (0 : Fin 1) * 16 + 1 * (j 1).val = win5_2.index t (1 : Fin 2) * 16 + 1 * (j 1).val; omega

theorem mem_block (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v97).slice (win5_2.rect t)).set ↔ _
  rw [View.set_slice_whole, Rect.mem_set_unit]
  exact Iff.rfl

theorem covered (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  obtain ⟨t, ht⟩ := index_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 16 ≤ (i 1).val ∧ (i 1).val < win5_2.index t (1 : Fin 2) * 16 + 16; omega

theorem final (c : Dev nD) : (dat5 V c).arrAt 2 cfg5.N = layer (V c main_v96) (V c main_arg12) :=
  (dat5 V c).arrAt_eq_of_cover 2 (layer (V c main_v96) (V c main_arg12)) (fun t _ => flushed_eq V c t) (covered)

end Cert.KernelIdeal.BiasRelu5

end
-- ==== Proof.Head6.lean ====
/-
  Launch 6 of the program: the two dense layers of the read-out on the pooled graph features, in one grid point.

  The launch stages the whole pooled features `g : [1000, 16]`, the two weight matrices `W₁ : [16, 16]`,
  `W₂ : [16, 1]` and the two biases, and writes back the whole result `[1000, 1]`:
  `leaky (leaky (g · W₁ + b₁) · W₂ + b₂)`, the leaky rectifier's slope the float pattern of 11/48 both programs carry.
  Every window's one block is its whole array, so the result array ends holding that function of the arrays the launch
  finds. Stated at any contents `V` the launch is entered with.
-/
import proofs.«123457_j55611236548999_1_alg».proof.Proof.Gen.KernelIdeal.Frame
import proofs.«123457_j55611236548999_1_alg».proof.Proof.LibDenseTile
import proofs.«123457_j55611236548999_1_alg».proof.Proof.LibRowBlock
import Idealize.ShloMosaic.Lib.Pipeline.Value
import Idealize.ShloMosaic.Lib.ValueIdx

set_option maxRecDepth 16384

noncomputable section

open scoped BigOperators

namespace Cert.KernelIdeal.Head6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The read-out, as a function of the five arrays the launch reads. -/
def head (g : S1000x16.Idx → EReal) (w1 : S16x16.Idx → EReal) (b1 : S16.Idx → EReal) (w2 : S16x1.Idx → EReal) (b2 : S1.Idx → EReal) :
    S1000x1.Idx → EReal :=
  Cert.LibDenseTile.leaky 0x3E6AAAAB#32 (Cert.Gcn.logits (Cert.Gcn.mm
    (Cert.LibDenseTile.leaky 0x3E6AAAAB#32 (Cert.Gcn.logits (Cert.Gcn.mm g w1) b1)) w2) b2)

/-- The body's one stored value is the read-out of its five loaded blocks. -/
theorem tile_eq (x0 : Vec Ideal S1000x16 .f32) (x1 : Vec Ideal S16x16 .f32) (x2 : Vec Ideal S16 .f32) (x3 : Vec Ideal S16x1 .f32) (x4 : Vec Ideal S1 .f32) :
    k6_pay1 (F := Ideal) x0 x1 x2 x3 x4 = head x0 x1 x2 x3 x4 := by
  have e1 : matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32) = Cert.Gcn.mm x0 x1 := by
    rw [shapeCast_self]
    exact Cert.LibDenseTile.matmul_eq_mm dot_S1000x16_S16x16_S1000x16_1_0_0_1_n_n rfl rfl rfl rfl rfl rfl bitsLt_bf16_f32 bitsLt_bf16_f32 x0 x1
  have e2 : ∀ z : FVec Ideal S1000x16 .f32, addf (F := Ideal) z (broadcastTo S1000x16 (shapeCast S1x16 x2 shapeCasts_S16_S1x16) broadcasts_S1x16_S1000x16) = Cert.Gcn.logits z x2 :=
    fun z => Cert.LibDenseTile.logits_tile shapeCasts_S16_S1x16 broadcasts_S1x16_S1000x16 z x2
  have e3 : ∀ h : FVec Ideal S1000x16 .f32, matmul (F := Ideal) dot_S1000x16_S16x1_S1000x1_1_0_0_1_n_n none (truncf .bf16 h bitsLt_bf16_f32) (truncf .bf16 x3 bitsLt_bf16_f32) (constant S1000x1 .f32 0x00000000#32) = Cert.Gcn.mm h x3 :=
    fun h => Cert.LibDenseTile.matmul_eq_mm dot_S1000x16_S16x1_S1000x1_1_0_0_1_n_n rfl rfl rfl rfl rfl rfl bitsLt_bf16_f32 bitsLt_bf16_f32 h x3
  have e4 : ∀ z : FVec Ideal S1000x1 .f32, addf (F := Ideal) z (broadcastTo S1000x1 (shapeCast S1x1 x4 shapeCasts_S1_S1x1) broadcasts_S1x1_S1000x1) = Cert.Gcn.logits z x4 :=
    fun z => Cert.LibDenseTile.logits_tile shapeCasts_S1_S1x1 broadcasts_S1x1_S1000x1 z x4
  show (select (cmpf (F := Ideal) .oge (addf (F := Ideal) (matmul (F := Ideal) dot_S1000x16_S16x1_S1000x1_1_0_0_1_n_n none (truncf .bf16 (select (cmpf (F := Ideal) .oge (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)) (broadcast S1000x16 (Scalar.ofBits (F := Ideal) .f32 0x00000000#32))) (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)) (mulf (F := Ideal) (broadcast S1000x16 (Scalar.ofBits (F := Ideal) .f32 0x3E6AAAAB#32)) (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)))) bitsLt_bf16_f32) (truncf .bf16 x3 bitsLt_bf16_f32) (constant S1000x1 .f32 0x00000000#32)) (broadcastTo S1000x1 (shapeCast S1x1 x4 shapeCasts_S1_S1x1) broadcasts_S1x1_S1000x1)) (broadcast S1000x1 (Scalar.ofBits (F := Ideal) .f32 0x00000000#32))) (addf (F := Ideal) (matmul (F := Ideal) dot_S1000x16_S16x1_S1000x1_1_0_0_1_n_n none (truncf .bf16 (select (cmpf (F := Ideal) .oge (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)) (broadcast S1000x16 (Scalar.ofBits (F := Ideal) .f32 0x00000000#32))) (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)) (mulf (F := Ideal) (broadcast S1000x16 (Scalar.ofBits (F := Ideal) .f32 0x3E6AAAAB#32)) (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)))) bitsLt_bf16_f32) (truncf .bf16 x3 bitsLt_bf16_f32) (constant S1000x1 .f32 0x00000000#32)) (broadcastTo S1000x1 (shapeCast S1x1 x4 shapeCasts_S1_S1x1) broadcasts_S1x1_S1000x1)) (mulf (F := Ideal) (broadcast S1000x1 (Scalar.ofBits (F := Ideal) .f32 0x3E6AAAAB#32)) (addf (F := Ideal) (matmul (F := Ideal) dot_S1000x16_S16x1_S1000x1_1_0_0_1_n_n none (truncf .bf16 (select (cmpf (F := Ideal) .oge (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)) (broadcast S1000x16 (Scalar.ofBits (F := Ideal) .f32 0x00000000#32))) (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)) (mulf (F := Ideal) (broadcast S1000x16 (Scalar.ofBits (F := Ideal) .f32 0x3E6AAAAB#32)) (addf (F := Ideal) (matmul (F := Ideal) dot_S1000x16_S16x16_S1000x16_1_0_0_1_n_n none (truncf .bf16 (shapeCast S1000x16 x0 shapeCasts_S1000x16_S1000x16) bitsLt_bf16_f32) (truncf .bf16 x1 bitsLt_bf16_f32) (constant S1000x16 .f32 0x00000000#32)) (broadcastTo S1000x16 (shapeCast S1x16 x2 shapeCasts_S16_S1x16) broadcasts_S1x16_S1000x16)))) bitsLt_bf16_f32) (truncf .bf16 x3 bitsLt_bf16_f32) (constant S1000x1 .f32 0x00000000#32)) (broadcastTo S1000x1 (shapeCast S1x1 x4 shapeCasts_S1_S1x1) broadcasts_S1x1_S1000x1)))) = _
  rw [e1, e2, Cert.LibDenseTile.leaky_tile, e3, e4, Cert.LibDenseTile.leaky_tile]
  rfl

/-- The printed index maps at the one point: every block index is zero. -/
theorem index_facts : ∀ t : Fin cfg6.N,
    win6_0.index t (0 : Fin 2) = 0
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = 0
    ∧ win6_3.index t (1 : Fin 2) = 0
    ∧ win6_4.index t (0 : Fin 1) = 0
    ∧ win6_5.index t (0 : Fin 2) = 0
    ∧ win6_5.index t (1 : Fin 2) = 0 :=
  (by decide +kernel : ∀ t : Fin grid6.N, _)

theorem index_onto : ∃ t : Fin cfg6.N, win6_5.index t = ![0, 0] :=
  (by decide +kernel : ∃ t : Fin grid6.N, win6_5.index t = ![0, 0])

/-- WHAT THE POINT WRITES BACK is the one block of `head` of the arrays as the launch finds them. -/
theorem flushed_eq (c : Dev nD) (t : Fin cfg6.N) :
    (dat6 V c).flushed 5 t = ((cfg6.win 5).blk t).view.read (Elt Ideal)
      (head (V c main_v109) (V c main_arg13) (V c main_arg14) (V c main_arg15) (V c main_arg16)) := by
  show (cfg6.win 5).cut (grid6.coords t) ((dat6 V c).after 5 t) = _
  rw [after6_5]
  unfold out6_5
  rw [View.canon_unit_zero zero2]
  simp only [View.ld_unit_zero (S := S1000x16) zero2, View.ld_unit_zero (S := S16x16) zero2, View.ld_unit_zero (S := S16) zero1,
    View.ld_unit_zero (S := S16x1) zero2, View.ld_unit_zero (S := S1) zero1]
  rw [tile_eq]
  obtain ⟨f0, f1, f2, f3, f4, f5, f6, f7, f8, f9⟩ := index_facts t
  have r0 : iblk6 V c 0 t = V c main_v109 := funext fun y => by
    show V c main_v109 (((cfg6.win 0).blk t).view.emb y) = V c main_v109 y
    refine congrArg (V c main_v109) (funext fun a => Fin.ext ?_)
    match a with
    | ⟨0, _⟩ => show win6_0.index t (0 : Fin 2) * 1000 + 1 * (y 0).val = (y 0).val; omega
    | ⟨1, _⟩ => show win6_0.index t (1 : Fin 2) * 16 + 1 * (y 1).val = (y 1).val; omega
  have r1 : iblk6 V c 1 t = V c main_arg13 := funext fun y => by
    show V c main_arg13 (((cfg6.win 1).blk t).view.emb y) = V c main_arg13 y
    refine congrArg (V c main_arg13) (funext fun a => Fin.ext ?_)
    match a with
    | ⟨0, _⟩ => show win6_1.index t (0 : Fin 2) * 16 + 1 * (y 0).val = (y 0).val; omega
    | ⟨1, _⟩ => show win6_1.index t (1 : Fin 2) * 16 + 1 * (y 1).val = (y 1).val; omega
  have r2 : iblk6 V c 2 t = V c main_arg14 := funext fun y => by
    show V c main_arg14 (((cfg6.win 2).blk t).view.emb y) = V c main_arg14 y
    refine congrArg (V c main_arg14) (funext fun a => Fin.ext ?_)
    match a with
    | ⟨0, _⟩ => show win6_2.index t (0 : Fin 1) * 16 + 1 * (y 0).val = (y 0).val; omega
  have r3 : iblk6 V c 3 t = V c main_arg15 := funext fun y => by
    show V c main_arg15 (((cfg6.win 3).blk t).view.emb y) = V c main_arg15 y
    refine congrArg (V c main_arg15) (funext fun a => Fin.ext ?_)
    match a with
    | ⟨0, _⟩ => show win6_3.index t (0 : Fin 2) * 16 + 1 * (y 0).val = (y 0).val; omega
    | ⟨1, _⟩ => show win6_3.index t (1 : Fin 2) * 1 + 1 * (y 1).val = (y 1).val; omega
  have r4 : iblk6 V c 4 t = V c main_arg16 := funext fun y => by
    show V c main_arg16 (((cfg6.win 4).blk t).view.emb y) = V c main_arg16 y
    refine congrArg (V c main_arg16) (funext fun a => Fin.ext ?_)
    match a with
    | ⟨0, _⟩ => show win6_4.index t (0 : Fin 1) * 1 + 1 * (y 0).val = (y 0).val; omega
  rw [r0, r1, r2, r3, r4]
  funext j
  show head (V c main_v109) (V c main_arg13) (V c main_arg14) (V c main_arg15) (V c main_arg16) j
    = head (V c main_v109) (V c main_arg13) (V c main_arg14) (V c main_arg15) (V c main_arg16) (((cfg6.win 5).blk t).view.emb j)
  refine congrArg _ (funext fun a => Fin.ext ?_)
  match a with
  | ⟨0, _⟩ => show (j 0).val = win6_5.index t (0 : Fin 2) * 1000 + 1 * (j 0).val; omega
  | ⟨1, _⟩ => show (j 1).val = win6_5.index t (1 : Fin 2) * 1 + 1 * (j 1).val; omega

theorem mem_block (t : Fin cfg6.N) (i : S1000x1.Idx) :
    i ∈ ((cfg6.win 5).blk t).view.set ↔ ∀ a : Fin 2, win6_5.index t a * S1000x1.size a ≤ (i a).val ∧ (i a).val < win6_5.index t a * S1000x1.size a + S1000x1.size a := by
  show i ∈ ((View.whole main_v110).slice (win6_5.rect t)).set ↔ _
  rw [View.set_slice_whole, Rect.mem_set_unit]
  exact Iff.rfl

theorem covered (i : S1000x1.Idx) :
    ∃ t : Fin cfg6.N, (cfg6.win 5).flush t = true ∧ i ∈ ((cfg6.win 5).blk t).view.set := by
  have hi0 : (i 0).val < 1000 := (i 0).isLt
  have hi1 : (i 1).val < 1 := (i 1).isLt
  obtain ⟨t, ht⟩ := index_onto
  have q0 : win6_5.index t (0 : Fin 2) = 0 := congrFun ht 0
  have q1 : win6_5.index t (1 : Fin 2) = 0 := congrFun ht 1
  refine ⟨t, flush6_5 t, ?_⟩
  rw [mem_block]
  intro a
  match a with
  | ⟨0, _⟩ => show win6_5.index t (0 : Fin 2) * 1000 ≤ (i 0).val ∧ (i 0).val < win6_5.index t (0 : Fin 2) * 1000 + 1000; omega
  | ⟨1, _⟩ => show win6_5.index t (1 : Fin 2) * 1 ≤ (i 1).val ∧ (i 1).val < win6_5.index t (1 : Fin 2) * 1 + 1; omega

/-- THE RESULT ARRAY after the launch. -/
theorem final (c : Dev nD) : (dat6 V c).arrAt 5 cfg6.N
    = head (V c main_v109) (V c main_arg13) (V c main_arg14) (V c main_arg15) (V c main_arg16) :=
  (dat6 V c).arrAt_eq_of_cover 5 _ (fun t _ => flushed_eq V c t) (covered)

end Cert.KernelIdeal.Head6

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostLayers.lean ====
/-
  The dense pieces of a graph network layer as a host program spells them, on the extended reals.

  `stablehlo.dot_general` of an `[M, K]` by a `[K, N]` operand is the dense product `Cert.Gcn.mm`; a bias vector laid
  out as a row, broadcast down the rows and added gives the logits `Cert.Gcn.logits`; their `max` with a broadcast zero
  is `Cert.Gcn.biasRelu`; and the body of `jax.nn.log_softmax` along the rows — the row maxima by a `reduce` of `max` from
  `-∞` and one more `max` with `-∞`, kept as a column and broadcast back (`maxBack`), subtracted; the exponentials' row
  sums by a `reduce` of `add` from zero, kept as a column, their logarithm broadcast back, subtracted — is
  `Cert.Gcn.logSoftmax`. Each is an equation between whole arrays, for any extents and any evidence of the shape
  facts; every float-polymorphic operation is pinned to the extended reals, since an operand given as a plain function
  into them does not determine the instance.
-/
import proofs.«123457_j55611236548999_1_alg».proof.Proof.LibHostMatmulNN
import proofs.«123457_j55611236548999_1_alg».proof.Proof.LibHostKeepdims
import proofs.«123457_j55611236548999_1_alg».proof.Proof.LibGcnLayers
import Idealize.ShloMosaic.Lib.ValueIdx
import Idealize.ShloMosaic.Lib.Pipeline.Value
import Idealize.ShloMosaic.PureOps.Ideal.Laws

noncomputable section

open scoped BigOperators

namespace Cert.LibHostLayers

open Idealize.ShloMosaic Idealize.ShloMosaic.ValueIdx

variable {M K N : ℕ}

/-- The host's product of whole arrays is the dense product. -/
theorem dot_eq_mm (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, K]⟩ .f32) (B : FVec Ideal ⟨2, ![K, N]⟩ .f32) :
    Host.dotGeneral (F := Ideal) d none A B = Cert.Gcn.mm A B := by
  funext i
  obtain ⟨p, q, rfl⟩ : ∃ (p : Fin M) (q : Fin N), i = ix2 p q := ⟨i 0, i 1, eq_ix2 i⟩
  exact Cert.LibHostMatmulNN.hostDot_nn_apply d hlc hrc hln hrn hlb hrb none A B p q

/-- The bias laid out as a row and broadcast down the rows, added: the logits. -/
theorem add_bias_eq (h1 : (⟨1, ![N]⟩ : Shape).BroadcastsInDim ⟨2, ![1, N]⟩ ![1])
    (h2 : (⟨2, ![1, N]⟩ : Shape).BroadcastsInDim ⟨2, ![M, N]⟩ ![0, 1])
    (a : FVec Ideal ⟨2, ![M, N]⟩ .f32) (b : FVec Ideal ⟨1, ![N]⟩ .f32) :
    addf (F := Ideal) a (broadcastInDim ⟨2, ![M, N]⟩ ![0, 1] h2 (broadcastInDim ⟨2, ![1, N]⟩ ![1] h1 b)) = Cert.Gcn.logits a b := by
  funext i
  obtain ⟨p, q, rfl⟩ : ∃ (p : Fin M) (q : Fin N), i = ix2 p q := ⟨i 0, i 1, eq_ix2 i⟩
  show a (ix2 p q) + broadcastInDim ⟨2, ![M, N]⟩ ![0, 1] h2 (broadcastInDim ⟨2, ![1, N]⟩ ![1] h1 b) (ix2 p q) = _
  rw [broadcastInDim_1b_ab_apply ![0, 1] h2 rfl, broadcastInDim_b_1b_apply ![1] h1 rfl]
  rfl

/-- The logits' positive part, against a broadcast zero. -/
theorem relu_eq (h0 : (⟨0, ![]⟩ : Shape).BroadcastsInDim ⟨2, ![M, N]⟩ ![])
    (a : FVec Ideal ⟨2, ![M, N]⟩ .f32) (b : FVec Ideal ⟨1, ![N]⟩ .f32) :
    maximumf (F := Ideal) (Cert.Gcn.logits a b) (broadcastInDim ⟨2, ![M, N]⟩ ![] h0 (constant (F := Ideal) ⟨0, ![]⟩ .f32 0x00000000#32))
      = Cert.Gcn.biasRelu a b := by
  funext i
  show max (Cert.Gcn.logits a b i) (broadcastInDim ⟨2, ![M, N]⟩ ![] h0 (constant (F := Ideal) ⟨0, ![]⟩ .f32 0x00000000#32) i) = _
  rw [broadcastInDim_scalar_apply]
  rfl

/-- Folding `max` from a value never goes below that value. -/
theorem max_fold_self {ι : Type} (s : Finset ι) (w : EReal) (f : ι → EReal) : max w (s.fold max w f) = s.fold max w f :=
  max_eq_right ((Finset.le_fold_max w).mpr (Or.inl le_rfl))

/-- The host's exponential and logarithm, read at an index. -/
theorem hostExp_apply {s : Shape} {φ : FTy} (a : FVec Ideal s φ) (i : s.Idx) : Host.exp (F := Ideal) a i = Ideal.exp (a i) := rfl
theorem hostLog_apply {s : Shape} {φ : FTy} (a : FVec Ideal s φ) (i : s.Idx) : Host.log (F := Ideal) a i = Ideal.log (a i) := rfl

/-- The rows' maxima as the host computes them — a `reduce` of `max` from `-∞`, once more `max` with `-∞` — kept as a
    column and broadcast back along the rows. -/
def maxBack (hr' : (⟨2, ![M, N]⟩ : Shape).ReducesTo [1] ⟨1, ![M]⟩) (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) : FVec Ideal ⟨2, ![M, N]⟩ .f32 :=
  broadcastInDim ⟨2, ![M, N]⟩ ![0, 1] h2 (broadcastInDim ⟨2, ![M, 1]⟩ ![0] h1
    (maximumf (F := Ideal) (broadcastInDim ⟨1, ![M]⟩ ![] h0 (constant (F := Ideal) ⟨0, ![]⟩ .f32 0xFF800000#32))
      (Host.reduce (FloatOps.maximumf (F := Ideal) (φ := .f32)) z (constant (F := Ideal) ⟨0, ![]⟩ .f32 0xFF800000#32) hr' hu)))

/-- Read anywhere in row `p`, it is the row's maximum. -/
theorem maxBack_apply (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) (p : Fin M) (c : Fin N) :
    maxBack hr' hu h0 h1 h2 z (ix2 p c) = Cert.Gcn.rowMax z p := by
  unfold maxBack
  rw [broadcastInDim_a1_ab_apply ![0, 1] h2 rfl, broadcastInDim_a_a1_apply ![0] h1 rfl, maximumf_apply,
    broadcastInDim_scalar_apply, hostReduce_max_rows_apply z _ hr' hr hu p]
  exact max_fold_self _ _ _

/-- The body of `log_softmax` on a matrix `z`, as the host spells it, read at `(p, q)`. -/
theorem logSoftmax_host (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) (p : Fin M) (q : Fin N) :
    subf (F := Ideal) (subf (F := Ideal) z (maxBack hr' hu h0 h1 h2 z))
      (broadcastInDim ⟨2, ![M, N]⟩ ![0, 1] h2 (Host.log (F := Ideal) (broadcastInDim ⟨2, ![M, 1]⟩ ![0] h1
        (Host.reduceAdd (F := Ideal) (Host.exp (F := Ideal) (subf (F := Ideal) z (maxBack hr' hu h0 h1 h2 z)))
          (constant (F := Ideal) ⟨0, ![]⟩ .f32 0x00000000#32) hr' hu)))) (ix2 p q)
    = (z (ix2 p q) - Cert.Gcn.rowMax z p) - Ideal.log (∑ k : Fin N, Ideal.exp (z (ix2 p k) - Cert.Gcn.rowMax z p)) := by
  rw [subf_apply, subf_apply, maxBack_apply hr' hr hu h0 h1 h2 z p q, broadcastInDim_a1_ab_apply ![0, 1] h2 rfl,
    hostLog_apply, broadcastInDim_a_a1_apply ![0] h1 rfl, hostReduceAdd_rows_apply _ _ hr' hr hu p, constant_apply,
    Ideal.ofBits_zero_f32, zero_add]
  refine congrArg (fun s => (z (ix2 p q) - Cert.Gcn.rowMax z p) - Ideal.log s) (Finset.sum_congr rfl fun k _ => ?_)
  rw [hostExp_apply, subf_apply, maxBack_apply hr' hr hu h0 h1 h2 z p k]

/-- On the logits it is the row-wise log-softmax. -/
theorem logSoftmax_eq (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (a : FVec Ideal ⟨2, ![M, N]⟩ .f32) (b : FVec Ideal ⟨1, ![N]⟩ .f32) :
    subf (F := Ideal) (subf (F := Ideal) (Cert.Gcn.logits a b) (maxBack hr' hu h0 h1 h2 (Cert.Gcn.logits a b)))
      (broadcastInDim ⟨2, ![M, N]⟩ ![0, 1] h2 (Host.log (F := Ideal) (broadcastInDim ⟨2, ![M, 1]⟩ ![0] h1
        (Host.reduceAdd (F := Ideal) (Host.exp (F := Ideal) (subf (F := Ideal) (Cert.Gcn.logits a b) (maxBack hr' hu h0 h1 h2 (Cert.Gcn.logits a b))))
          (constant (F := Ideal) ⟨0, ![]⟩ .f32 0x00000000#32) hr' hu))))
    = Cert.Gcn.logSoftmax a b := by
  funext i
  obtain ⟨p, q, rfl⟩ : ∃ (p : Fin M) (q : Fin N), i = ix2 p q := ⟨i 0, i 1, eq_ix2 i⟩
  exact logSoftmax_host hr' hr hu h0 h1 h2 (Cert.Gcn.logits a b) p q

end Cert.LibHostLayers

end
-- ==== Proof.RefDense.lean ====
/-
  The reference's dense stages, each as a function of the stage before it, on the extended reals.

  The reference computes, layer by layer, `h ↦ max (Â (h · W) + b, 0)`: a dense product with the layer's weights, the
  edge aggregation `Â` (a gather of rows, a scaling by the edge weights and a scatter-add, kept closed here), the bias
  broadcast down the rows and added, the positive part. Read stage by stage: the product of layer `k + 1` is the dense
  product of `biasRelu` of layer `k`'s aggregated features and bias with layer `k + 1`'s weights; the last layer ends
  in `biasRelu`; the read-out on the pooled features is two dense layers each followed by the leaky rectifier.
-/
import proofs.«123457_j55611236548999_1_alg».proof.Proof.RefReadPatched
import proofs.«123457_j55611236548999_1_alg».proof.Proof.LibHostLayers
import proofs.«123457_j55611236548999_1_alg».proof.Proof.LibDenseTile

set_option maxRecDepth 16384

noncomputable section

namespace Cert.ReferenceIdeal.Dense

open Cert.ReferenceIdeal Cert.ReferenceIdeal.Gen Cert.ReferenceIdeal.ReadP
open Idealize.ShloMosaic Idealize.ShloMosaic.ValueIdx

/-- The first layer's product is the dense product of the node features with its weights. -/
theorem dot1 (x0 : (⟨S100000x4, .f32⟩ : BufTy).Contents (Elt Ideal)) (x3 : (⟨S4x16, .f32⟩ : BufTy).Contents (Elt Ideal)) :
    val_main_v30 (F := Ideal) x0 x3 = Cert.Gcn.mm x0 x3 := by
  unfold val_main_v30
  exact Cert.LibHostLayers.dot_eq_mm dot_S100000x4_S4x16_S100000x16_1_0_0_1_n_n rfl rfl rfl rfl rfl rfl x0 x3

/-- Layer 2's product: the dense product of the rectified, biased layer-1 features with layer 2's weights. -/
theorem dot2 (x0 : (⟨S100000x4, .f32⟩ : BufTy).Contents (Elt Ideal)) (x1 : (⟨S2x3200000, .i32⟩ : BufTy).Contents (Elt Ideal)) (x3 : (⟨S4x16, .f32⟩ : BufTy).Contents (Elt Ideal)) (x4 : (⟨S16, .f32⟩ : BufTy).Contents (Elt Ideal)) (x5 : (⟨S16x16, .f32⟩ : BufTy).Contents (Elt Ideal)) :
    val_main_v48 (F := Ideal) x0 x1 x3 x4 x5
      = Cert.Gcn.mm (Cert.Gcn.biasRelu (val_main_v43 (F := Ideal) x0 x1 x3) x4) x5 := by
  unfold val_main_v48 val_main_v47 val_main_v46 val_main_v45 val_main_v44 val_main_call1_v0 val_main_call1_cst
  rw [Cert.LibHostLayers.add_bias_eq bcast_S16_S1x16_1 bcast_S1x16_S100000x16_0_1 _ x4,
    Cert.LibHostLayers.relu_eq bcast_S_S100000x16 _ x4]
  exact Cert.LibHostLayers.dot_eq_mm dot_S100000x16_S16x16_S100000x16_1_0_0_1_n_n rfl rfl rfl rfl rfl rfl _ x5

/-- Layer 3's product: the dense product of the rectified, biased layer-2 features with layer 3's weights. -/
theorem dot3 (x0 : (⟨S100000x4, .f32⟩ : BufTy).Contents (Elt Ideal)) (x1 : (⟨S2x3200000, .i32⟩ : BufTy).Contents (Elt Ideal)) (x3 : (⟨S4x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) :
    val_main_v66 (F := Ideal) x0 x1 x3 x4 x5 x6 x7
      = Cert.Gcn.mm (Cert.Gcn.biasRelu (val_main_v61 (F := Ideal) x0 x1 x3 x4 x5) x6) x7 := by
  unfold val_main_v66 val_main_v65 val_main_v64 val_main_v63 val_main_v62 val_main_call2_v0 val_main_call2_cst
  rw [Cert.LibHostLayers.add_bias_eq bcast_S16_S1x16_1 bcast_S1x16_S100000x16_0_1 _ x6,
    Cert.LibHostLayers.relu_eq bcast_S_S100000x16 _ x6]
  exact Cert.LibHostLayers.dot_eq_mm dot_S100000x16_S16x16_S100000x16_1_0_0_1_n_n rfl rfl rfl rfl rfl rfl _ x7

/-- Layer 4's product: the dense product of the rectified, biased layer-3 features with layer 4's weights. -/
theorem dot4 (x0 : (⟨S100000x4, .f32⟩ : BufTy).Contents (Elt Ideal)) (x1 : (⟨S2x3200000, .i32⟩ : BufTy).Contents (Elt Ideal)) (x3 : (⟨S4x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) :
    val_main_v84 (F := Ideal) x0 x1 x3 x4 x5 x6 x7 x8 x9
      = Cert.Gcn.mm (Cert.Gcn.biasRelu (val_main_v79 (F := Ideal) x0 x1 x3 x4 x5 x6 x7) x8) x9 := by
  unfold val_main_v84 val_main_v83 val_main_v82 val_main_v81 val_main_v80 val_main_call3_v0 val_main_call3_cst
  rw [Cert.LibHostLayers.add_bias_eq bcast_S16_S1x16_1 bcast_S1x16_S100000x16_0_1 _ x8,
    Cert.LibHostLayers.relu_eq bcast_S_S100000x16 _ x8]
  exact Cert.LibHostLayers.dot_eq_mm dot_S100000x16_S16x16_S100000x16_1_0_0_1_n_n rfl rfl rfl rfl rfl rfl _ x9

/-- Layer 5's product: the dense product of the rectified, biased layer-4 features with layer 5's weights. -/
theorem dot5 (x0 : (⟨S100000x4, .f32⟩ : BufTy).Contents (Elt Ideal)) (x1 : (⟨S2x3200000, .i32⟩ : BufTy).Contents (Elt Ideal)) (x3 : (⟨S4x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) :
    val_main_v102 (F := Ideal) x0 x1 x3 x4 x5 x6 x7 x8 x9 x10 x11
      = Cert.Gcn.mm (Cert.Gcn.biasRelu (val_main_v97 (F := Ideal) x0 x1 x3 x4 x5 x6 x7 x8 x9) x10) x11 := by
  unfold val_main_v102 val_main_v101 val_main_v100 val_main_v99 val_main_v98 val_main_call4_v0 val_main_call4_cst
  rw [Cert.LibHostLayers.add_bias_eq bcast_S16_S1x16_1 bcast_S1x16_S100000x16_0_1 _ x10,
    Cert.LibHostLayers.relu_eq bcast_S_S100000x16 _ x10]
  exact Cert.LibHostLayers.dot_eq_mm dot_S100000x16_S16x16_S100000x16_1_0_0_1_n_n rfl rfl rfl rfl rfl rfl _ x11

/-- The last layer's features: the rectified, biased aggregation. -/
theorem relu5 (x0 : (⟨S100000x4, .f32⟩ : BufTy).Contents (Elt Ideal)) (x1 : (⟨S2x3200000, .i32⟩ : BufTy).Contents (Elt Ideal)) (x3 : (⟨S4x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) :
    val_main_v119 (F := Ideal) x0 x1 x3 x4 x5 x6 x7 x8 x9 x10 x11 x12
      = Cert.Gcn.biasRelu (val_main_v115 (F := Ideal) x0 x1 x3 x4 x5 x6 x7 x8 x9 x10 x11) x12 := by
  unfold val_main_v119 val_main_v118 val_main_v117 val_main_v116 val_main_call5_v0 val_main_call5_cst
  rw [Cert.LibHostLayers.add_bias_eq bcast_S16_S1x16_1 bcast_S1x16_S100000x16_0_1 _ x12]
  exact Cert.LibHostLayers.relu_eq bcast_S_S100000x16 _ x12

/-- The read-out: two dense layers on the pooled features, each followed by the leaky rectifier of slope 11/48. -/
theorem readout (x0 : (⟨S100000x4, .f32⟩ : BufTy).Contents (Elt Ideal)) (x1 : (⟨S2x3200000, .i32⟩ : BufTy).Contents (Elt Ideal)) (x2 : (⟨S100000, .i32⟩ : BufTy).Contents (Elt Ideal)) (x3 : (⟨S4x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S16x16, .f32⟩ : BufTy).Contents (Elt Ideal)) (x14 : (⟨S16, .f32⟩ : BufTy).Contents (Elt Ideal)) (x15 : (⟨S16x1, .f32⟩ : BufTy).Contents (Elt Ideal)) (x16 : (⟨S1, .f32⟩ : BufTy).Contents (Elt Ideal)) :
    val_main_v149 (F := Ideal) x0 x1 x2 x3 x4 x5 x6 x7 x8 x9 x10 x11 x12 x13 x14 x15 x16
      = Cert.LibDenseTile.leaky 0x3E6AAAAB#32 (Cert.Gcn.logits (Cert.Gcn.mm
          (Cert.LibDenseTile.leaky 0x3E6AAAAB#32 (Cert.Gcn.logits (Cert.Gcn.mm
            (val_main_v131 (F := Ideal) x0 x1 x2 x3 x4 x5 x6 x7 x8 x9 x10 x11 x12) x13) x14)) x15) x16) := by
  unfold val_main_v149 val_main_v148 val_main_v147 val_main_v146 val_main_v145 val_main_v144 val_main_v143 val_main_v142
    val_main_v141 val_main_v140 val_main_v139 val_main_v138 val_main_v137 val_main_v136 val_main_v135 val_main_v134
    val_main_v133 val_main_v132 val_main_cst_25 val_main_cst_26 val_main_cst_27 val_main_cst_28
  rw [Cert.LibHostLayers.dot_eq_mm dot_S1000x16_S16x16_S1000x16_1_0_0_1_n_n rfl rfl rfl rfl rfl rfl _ x13,
    Cert.LibHostLayers.add_bias_eq bcast_S16_S1x16_1 bcast_S1x16_S1000x16_0_1 _ x14,
    Cert.LibDenseTile.leaky_host 0x3E6AAAAB#32 bcast_S_S1000x16 bcast_S_S1000x16,
    Cert.LibHostLayers.dot_eq_mm dot_S1000x16_S16x1_S1000x1_1_0_0_1_n_n rfl rfl rfl rfl rfl rfl _ x15,
    Cert.LibHostLayers.add_bias_eq bcast_S1_S1x1_1 bcast_S1x1_S1000x1_0_1 _ x16,
    Cert.LibDenseTile.leaky_host 0x3E6AAAAB#32 bcast_S_S1000x1 bcast_S_S1000x1]

end Cert.ReferenceIdeal.Dense

end
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.Chain.lean ====
/-
  The idealized kernel's buffers, boundary by boundary, against the reference's stages.

  Both programs compute the same network from the same arguments. The kernel's first stretches of host operations
  build the two index vectors of the edge list with self loops and the column of edge weights exactly as the
  reference does; each launch leaves the dense piece the reference computes with a `dot_general`, a broadcast bias and
  a `maximum` (the region modules say which function of the arrays each launch leaves; the reference-side module says
  the reference's stage is the same function of the stage before); and each stretch between two launches applies to the
  launch's result the very operations — a gather of rows, a product with the weights' column, a scatter-add — that the
  reference applies to its own stage, so once the values going in agree the values coming out do, the operations never
  opened. Walking the sixteen boundaries in order, the result array ends at the reference's result stage of the
  arguments the memory was launched with.
-/
import proofs.«123457_j55611236548999_1_alg».proof.Proof.Carry
import proofs.«123457_j55611236548999_1_alg».proof.Proof.Transform0
import proofs.«123457_j55611236548999_1_alg».proof.Proof.Transform1
import proofs.«123457_j55611236548999_1_alg».proof.Proof.Transform2
import proofs.«123457_j55611236548999_1_alg».proof.Proof.Transform3
import proofs.«123457_j55611236548999_1_alg».proof.Proof.Transform4
import proofs.«123457_j55611236548999_1_alg».proof.Proof.BiasRelu5
import proofs.«123457_j55611236548999_1_alg».proof.Proof.Head6
import proofs.«123457_j55611236548999_1_alg».proof.Proof.RefDense
import proofs.«123457_j55611236548999_1_alg».proof.Proof.LibTypedRef

set_option maxRecDepth 16384
set_option maxHeartbeats 1600000

noncomputable section

namespace Cert.KernelIdeal.Chain

open Cert.KernelIdeal Cert.KernelIdeal.Gen
open Idealize.ShloMosaic Idealize.ShloMosaic.TcCoe Idealize.SL.Sem Idealize.ShloMosaic.StableHlo
open Cert.LibTypedRef
open Cert.ReferenceIdeal.ReadP (val_main_v3 val_main_v6 val_main_v31 val_main_v30 val_main_v131 val_main_v149 val_main_v119 val_main_v43 val_main_v30 val_main_v61 val_main_v48 val_main_v79 val_main_v66 val_main_v97 val_main_v84 val_main_v115 val_main_v102)

variable (m : (ℓ : Loc nD τ sig) → Buf (Elt Ideal) ℓ) (ρ : Dev nD → PrngReg)

/-! ## What the first stretches leave: the edge list's index vectors and the edge-weight column

The three stretches before launch 0 are read one at a time, each from the contents the one before left: those contents
are kept as one opaque valuation while a stretch's operations are read, and what the stretch reads from them — the index
vectors, the degrees' inverse square roots — is put in afterwards, each by its own equation. -/

/-- The source index of every edge, the self loops appended, after the first stretch. -/
theorem row1 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

/-- The target index of every edge, the self loops appended, after the first stretch. -/
theorem col1 (c : Dev nD) : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp
  rfl

/-- Which nodes have positive degree. -/
theorem pos1 (c : Dev nD) : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  rfl

/-- The degrees' inverse square roots, wherever defined. -/
theorem rsq1 (c : Dev nD) : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp
  rfl

/-- The zero the inverse square root is replaced by at an isolated node. -/
theorem zero1 (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-- The second stretch is the inlined `where`: a copy of the zero, its broadcast, and the selection. Its three
    operations, spelt at their buffers' own types. -/
theorem where_plain : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v12 main_v13 main_call0_v1 main_v14 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := by
  ops_entries

/-- The second stretch selects: `deg^(-1/2)` where the degree is positive, zero elsewhere. -/
theorem dis2 (c : Dev nD) : W2 m ρ c (Proc.devRef .tc main_v14) = Cert.ReferenceIdeal.ReadP.val_main_v14 (F := Ideal) (m ((c : Thread nD τ).loc main_arg1)) := by
  have h12 := pos1 m ρ c
  have h13 := rsq1 m ρ c
  have hz := zero1 m ρ c
  show StableHlo.after hostOps0_1 (W1 m ρ c) (Proc.devRef .tc main_v14) = _
  rw [where_plain]
  generalize W1 m ρ c = V at h12 h13 hz ⊢
  after_results_simp
  rw [h12, h13, hz]
  rfl

/-- The second stretch leaves the index vectors alone. -/
theorem row2 (c : Dev nD) : W2 m ρ c (Proc.devRef .tc main_v3) = Cert.ReferenceIdeal.ReadP.val_main_v3 (F := Ideal) (m ((c : Thread nD τ).loc main_arg1)) := by
  have h := row1 m ρ c
  show StableHlo.after hostOps0_1 (W1 m ρ c) (Proc.devRef .tc main_v3) = _
  generalize W1 m ρ c = V at h ⊢
  after_results_simp
  exact h

theorem col2 (c : Dev nD) : W2 m ρ c (Proc.devRef .tc main_v6) = Cert.ReferenceIdeal.ReadP.val_main_v6 (F := Ideal) (m ((c : Thread nD τ).loc main_arg1)) := by
  have h := col1 m ρ c
  show StableHlo.after hostOps0_1 (W1 m ρ c) (Proc.devRef .tc main_v6) = _
  generalize W1 m ρ c = V at h ⊢
  after_results_simp
  exact h

/-- So does the third. -/
theorem row3 (c : Dev nD) : W3 m ρ c (Proc.devRef .tc main_v3) = val_main_v3 (F := Ideal) (m ((c : Thread nD τ).loc main_arg1)) := by
  have h := row2 m ρ c
  show StableHlo.after hostOps0_2 (W2 m ρ c) (Proc.devRef .tc main_v3) = _
  generalize W2 m ρ c = V at h ⊢
  after_results_simp
  exact h

theorem col3 (c : Dev nD) : W3 m ρ c (Proc.devRef .tc main_v6) = val_main_v6 (F := Ideal) (m ((c : Thread nD τ).loc main_arg1)) := by
  have h := col2 m ρ c
  show StableHlo.after hostOps0_2 (W2 m ρ c) (Proc.devRef .tc main_v6) = _
  generalize W2 m ρ c = V at h ⊢
  after_results_simp
  exact h

/-- The third stretch gathers the inverse square roots at the sources and at the targets and multiplies: the edge
    weights `deg^(-1/2)[source] · deg^(-1/2)[target]`, as a column. -/
theorem wcol3 (c : Dev nD) : W3 m ρ c (Proc.devRef .tc main_v30) = val_main_v31 (F := Ideal) (m ((c : Thread nD τ).loc main_arg1)) := by
  have h3 := row2 m ρ c
  have h6 := col2 m ρ c
  have h14 := dis2 m ρ c
  show StableHlo.after hostOps0_2 (W2 m ρ c) (Proc.devRef .tc main_v30) = _
  generalize W2 m ρ c = V at h3 h6 h14 ⊢
  after_results_simp
  rw [h3, h6, h14]
  rfl

/-! ## The layers -/

/-- Launch 0 leaves the first layer's product. -/
theorem out0 (c : Dev nD) : W4 m ρ c (Proc.devRef .tc main_v32) = val_main_v30 (F := Ideal) (m ((c : Thread nD τ).loc main_arg0)) (m ((c : Thread nD τ).loc main_arg3)) := by
  rw [show W4 m ρ c (Proc.devRef .tc main_v32) = (dat0 (V3 m ρ) c).arrAt 3 cfg0.N from W4_arr m ρ c 3,
    Transform0.final (V3 m ρ) c]
  show Cert.Gcn.mm (W3 m ρ c (Proc.devRef .tc main_arg0)) (W3 m ρ c (Proc.devRef .tc main_arg3)) = _
  rw [Carry.arg0_at3 m ρ c, Carry.arg3_at3 m ρ c]
  exact (Cert.ReferenceIdeal.Dense.dot1 _ _).symm

/-- The aggregation of layer 1: the stretch after launch 0 applies to the launch's result what the reference applies
    to its product. -/
theorem agg1 (c : Dev nD) : W5 m ρ c (Proc.devRef .tc main_v44) = val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v44) = _
  after_results_simp
  rw [Carry.v3_at4 m ρ c, Carry.v6_at4 m ρ c, Carry.v30_at4 m ρ c, row3 m ρ c, col3 m ρ c, wcol3 m ρ c, out0 m ρ c]
  rfl

/-- Launch 1 leaves layer 2's product of the rectified, biased layer-1 features. -/
theorem out1 (c : Dev nD) : W6 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [show W6 m ρ c (Proc.devRef .tc main_v45) = (dat1 (V5 m ρ) c).arrAt 3 cfg1.N from W6_arr m ρ c 3,
    Transform1.final (V5 m ρ) c]
  show Cert.Gcn.mm (Cert.Gcn.biasRelu (W5 m ρ c (Proc.devRef .tc main_v44)) (W5 m ρ c (Proc.devRef .tc main_arg4))) (W5 m ρ c (Proc.devRef .tc main_arg5)) = _
  rw [agg1 m ρ c, Carry.arg4_at5 m ρ c, Carry.arg5_at5 m ρ c]
  exact (Cert.ReferenceIdeal.Dense.dot2 _ _ _ _ _).symm

/-- The aggregation of layer 2: the stretch after launch 1 applies to the launch's result what the reference applies
    to its product. -/
theorem agg2 (c : Dev nD) : W7 m ρ c (Proc.devRef .tc main_v57) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v57) = _
  after_results_simp
  rw [Carry.v3_at6 m ρ c, Carry.v6_at6 m ρ c, Carry.v30_at6 m ρ c, row3 m ρ c, col3 m ρ c, wcol3 m ρ c, out1 m ρ c]
  rfl

/-- Launch 2 leaves layer 3's product of the rectified, biased layer-2 features. -/
theorem out2 (c : Dev nD) : W8 m ρ c (Proc.devRef .tc main_v58) = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W8 m ρ c (Proc.devRef .tc main_v58) = (dat2 (V7 m ρ) c).arrAt 3 cfg2.N from W8_arr m ρ c 3,
    Transform2.final (V7 m ρ) c]
  show Cert.Gcn.mm (Cert.Gcn.biasRelu (W7 m ρ c (Proc.devRef .tc main_v57)) (W7 m ρ c (Proc.devRef .tc main_arg6))) (W7 m ρ c (Proc.devRef .tc main_arg7)) = _
  rw [agg2 m ρ c, Carry.arg6_at7 m ρ c, Carry.arg7_at7 m ρ c]
  exact (Cert.ReferenceIdeal.Dense.dot3 _ _ _ _ _ _ _).symm

/-- The aggregation of layer 3: the stretch after launch 2 applies to the launch's result what the reference applies
    to its product. -/
theorem agg3 (c : Dev nD) : W9 m ρ c (Proc.devRef .tc main_v70) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W8 m ρ c) (Proc.devRef .tc main_v70) = _
  after_results_simp
  rw [Carry.v3_at8 m ρ c, Carry.v6_at8 m ρ c, Carry.v30_at8 m ρ c, row3 m ρ c, col3 m ρ c, wcol3 m ρ c, out2 m ρ c]
  rfl

/-- Launch 3 leaves layer 4's product of the rectified, biased layer-3 features. -/
theorem out3 (c : Dev nD) : W10 m ρ c (Proc.devRef .tc main_v71) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v71) = (dat3 (V9 m ρ) c).arrAt 3 cfg3.N from W10_arr m ρ c 3,
    Transform3.final (V9 m ρ) c]
  show Cert.Gcn.mm (Cert.Gcn.biasRelu (W9 m ρ c (Proc.devRef .tc main_v70)) (W9 m ρ c (Proc.devRef .tc main_arg8))) (W9 m ρ c (Proc.devRef .tc main_arg9)) = _
  rw [agg3 m ρ c, Carry.arg8_at9 m ρ c, Carry.arg9_at9 m ρ c]
  exact (Cert.ReferenceIdeal.Dense.dot4 _ _ _ _ _ _ _ _ _).symm

/-- The aggregation of layer 4: the stretch after launch 3 applies to the launch's result what the reference applies
    to its product. -/
theorem agg4 (c : Dev nD) : W11 m ρ c (Proc.devRef .tc main_v83) = val_main_v97 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4 (W10 m ρ c) (Proc.devRef .tc main_v83) = _
  after_results_simp
  rw [Carry.v3_at10 m ρ c, Carry.v6_at10 m ρ c, Carry.v30_at10 m ρ c, row3 m ρ c, col3 m ρ c, wcol3 m ρ c, out3 m ρ c]
  rfl

/-- Launch 4 leaves layer 5's product of the rectified, biased layer-4 features. -/
theorem out4 (c : Dev nD) : W12 m ρ c (Proc.devRef .tc main_v84) = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W12 m ρ c (Proc.devRef .tc main_v84) = (dat4 (V11 m ρ) c).arrAt 3 cfg4.N from W12_arr m ρ c 3,
    Transform4.final (V11 m ρ) c]
  show Cert.Gcn.mm (Cert.Gcn.biasRelu (W11 m ρ c (Proc.devRef .tc main_v83)) (W11 m ρ c (Proc.devRef .tc main_arg10))) (W11 m ρ c (Proc.devRef .tc main_arg11)) = _
  rw [agg4 m ρ c, Carry.arg10_at11 m ρ c, Carry.arg11_at11 m ρ c]
  exact (Cert.ReferenceIdeal.Dense.dot5 _ _ _ _ _ _ _ _ _ _ _).symm

/-- The aggregation of layer 5: the stretch after launch 4 applies to the launch's result what the reference applies
    to its product. -/
theorem agg5 (c : Dev nD) : W13 m ρ c (Proc.devRef .tc main_v96) = val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W12 m ρ c) (Proc.devRef .tc main_v96) = _
  after_results_simp
  rw [Carry.v3_at12 m ρ c, Carry.v6_at12 m ρ c, Carry.v30_at12 m ρ c, row3 m ρ c, col3 m ρ c, wcol3 m ρ c, out4 m ρ c]
  rfl

/-- Launch 5 leaves the last layer's features. -/
theorem out5 (c : Dev nD) : W14 m ρ c (Proc.devRef .tc main_v97) = val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W14 m ρ c (Proc.devRef .tc main_v97) = (dat5 (V13 m ρ) c).arrAt 2 cfg5.N from W14_arr m ρ c 2,
    BiasRelu5.final (V13 m ρ) c]
  show Cert.Gcn.biasRelu (W13 m ρ c (Proc.devRef .tc main_v96)) (W13 m ρ c (Proc.devRef .tc main_arg12)) = _
  rw [agg5 m ρ c, Carry.arg12_at13 m ρ c]
  exact (Cert.ReferenceIdeal.Dense.relu5 _ _ _ _ _ _ _ _ _ _ _ _).symm

/-- The mean over each graph's nodes: the stretch after launch 5 pools the launch's result as the reference pools its
    last features. -/
theorem pooled (c : Dev nD) : W15 m ρ c (Proc.devRef .tc main_v109) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps6 (W14 m ρ c) (Proc.devRef .tc main_v109) = _
  after_results_simp
  rw [Carry.arg2_at14 m ρ c, out5 m ρ c]
  rfl

/-- THE RESULT ARRAY at the last boundary: the reference's result stage of the launch memory's arguments. -/
theorem result (c : Dev nD) : W16 m ρ c (Proc.devRef .tc main_v110) = val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [show W16 m ρ c (Proc.devRef .tc main_v110) = (dat6 (V15 m ρ) c).arrAt 5 cfg6.N from W16_arr m ρ c 5,
    Head6.final (V15 m ρ) c]
  show Head6.head (W15 m ρ c (Proc.devRef .tc main_v109)) (W15 m ρ c (Proc.devRef .tc main_arg13)) (W15 m ρ c (Proc.devRef .tc main_arg14))
    (W15 m ρ c (Proc.devRef .tc main_arg15)) (W15 m ρ c (Proc.devRef .tc main_arg16)) = _
  rw [pooled m ρ c, Carry.arg13_at15 m ρ c, Carry.arg14_at15 m ρ c, Carry.arg15_at15 m ρ c, Carry.arg16_at15 m ρ c]
  exact (Cert.ReferenceIdeal.Dense.readout _ _ _ _ _ _ _ _ _ _ _ _ _ _ _ _ _).symm

end Cert.KernelIdeal.Chain

end
-- ==== Proof.lean ====
/- The proof of `Cert.Claim` (proofs.«123457_j55611236548999_1_alg».proof.Defs): a five-layer graph convolution network
   with a mean pool over graphs and a two-layer read-out, as a kernel program of seven launches against its plain reference.

   Both programs build, from the edge list, the source and target index vectors with self loops appended and the edge
   weights `deg^(-1/2)[source] · deg^(-1/2)[target]`, and then compute layer by layer
   `h ↦ max (Â (h · W) + b, 0)`, `Â` the gather of rows / product with the edge weights / scatter-add over the edges.
   The kernel program computes each dense piece in a launch tiled over ten row blocks — `x · W₁`, then four times
   `max (pre + b, 0) · W` (the bias and positive part of a layer fused into the NEXT layer's product), then the last
   layer's `max (pre + b, 0)` — pools on the host, and computes the read-out
   `leaky (leaky (g · W₁' + b₁') · W₂' + b₂')` in one launch; the reference computes the same pieces with
   `dot_general`, broadcasts and `maximum` on whole arrays. On the extended reals a change of float format is the
   identity and a product on the matrix unit into a zero accumulator is the contraction sum, a row of a dense product
   reads only the same row of its left operand, and everything else is the same operations applied to the same values:
   the two results are one function of the arguments, with no appeal to finiteness.

   Proof/Transform0–4, Proof/BiasRelu5, Proof/Head6: what each launch leaves in its result array, from any entry
   contents. Proof/Carry: what each launch and stretch finds in the buffers it reads. Proof/RefDense: the reference's
   dense stages as the same functions. Proof/Chain: the boundaries walked in order. Proof/RunNamed: the kernel program's
   run with its result array named. The reference's run and its stages are Proof/RefRunPatched and Proof/RefReadPatched.
   `preserves` is `True`: the idealization rewrote no operation. -/
import proofs.«123457_j55611236548999_1_alg».proof.Defs
import proofs.«123457_j55611236548999_1_alg».proof.Proof.Gen.Kernel
import proofs.«123457_j55611236548999_1_alg».proof.Proof.Gen.Kernel.Frame
import proofs.«123457_j55611236548999_1_alg».proof.Proof.Gen.KernelIdeal
import proofs.«123457_j55611236548999_1_alg».proof.Proof.Gen.KernelIdeal.Frame
import proofs.«123457_j55611236548999_1_alg».proof.Proof.Gen.ReferenceIdeal
import proofs.«123457_j55611236548999_1_alg».proof.Proof.Gen.Pre_finite_inputs
import proofs.«123457_j55611236548999_1_alg».proof.Proof.RunNamed
import proofs.«123457_j55611236548999_1_alg».proof.Proof.Chain
import proofs.«123457_j55611236548999_1_alg».proof.Proof.RefRunPatched
import proofs.«123457_j55611236548999_1_alg».proof.Proof.RefReadPatched
import Idealize.ShloMosaic.Adequacy
import Idealize.ShloMosaic.Init

set_option maxRecDepth 16384

noncomputable section

namespace Cert.Proof

open Idealize.ShloMosaic Idealize.SL.Sem

/-- The kernel program as printed runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- So does the reference: its run with the result dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- From memories that agree on the arguments both programs end with the reference's result stage of those arguments
    in their result arrays: the kernel program by the walk through its boundaries, the reference by its own run. -/
theorem algebraic : Cert.algebraic_KernelIdeal_ReferenceIdeal := by
  intro m ρ m' ρ' _ hagree
  refine ⟨fun c => Cert.ReferenceIdeal.ReadP.val_main_v149 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)),
    (θ_run Cert.KernelIdeal.defs _ _).mono (fun r h c => ⟨(h c).1.trans (Cert.KernelIdeal.Chain.result m ρ c), (h c).2⟩)
      (Cert.KernelIdeal.Named.run (F := Ideal) m ρ), ?_⟩
  refine (θ_run Cert.ReferenceIdeal.defs _ _).mono (fun r h c => ⟨?_, (h c).2⟩)
    (Cert.ReferenceIdeal.ValueP.run (F := Ideal) m' ρ')
  rw [(h c).1, Cert.ReferenceIdeal.ReadP.val_main_v149_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
